-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x256 : Shape := ⟨2, ![100000, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_

variable [Facts]

def fn {F : FTy → Type} [FloatOps F] (main_arg0 : FVec F S100000x128 .f32) (main_arg1 : FVec F S100000x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  main_v8
-- ==== Kernel.lean ====
abbrev S100000x128 : Shape := ⟨2, ![100000, 128]⟩
abbrev S100000x256 : Shape := ⟨2, ![100000, 256]⟩
abbrev S100000x8 : Shape := ⟨2, ![100000, 8]⟩
abbrev S10000x256 : Shape := ⟨2, ![10000, 256]⟩
abbrev S10000x8 : Shape := ⟨2, ![10000, 8]⟩
abbrev S10000x32 : Shape := ⟨2, ![10000, 32]⟩
abbrev S10000 : Shape := ⟨1, ![10000]⟩
abbrev S10000x1 : Shape := ⟨2, ![10000, 1]⟩
abbrev S8 : Shape := ⟨1, ![8]⟩
abbrev S1x8 : Shape := ⟨2, ![1, 8]⟩
abbrev S1 : Shape := ⟨1, ![1]⟩
abbrev S1x1 : Shape := ⟨2, ![1, 1]⟩
abbrev S8x100000x128 : Shape := ⟨3, ![8, 100000, 128]⟩
abbrev S10000x128 : Shape := ⟨2, ![10000, 128]⟩
abbrev S1x10000x128 : Shape := ⟨3, ![1, 10000, 128]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000x256, .f32⟩
  | .hbm, ⟨2, _⟩ => ⟨S100000x8, .f32⟩
  | .hbm, ⟨3, _⟩ => ⟨S8x100000x128, .f32⟩
  | .hbm, ⟨4, _⟩ => ⟨S_, .f32⟩
  | .hbm, ⟨5, _⟩ => ⟨S100000x8, .f32⟩
  | .hbm, ⟨6, _⟩ => ⟨S100000x8, .i1⟩
  | .hbm, ⟨7, _⟩ => ⟨S100000x8, .i1⟩
  | .local _ .vmem, ⟨0, _⟩ => ⟨S10000x256, .f32⟩
  | .local _ .vmem, ⟨1, _⟩ => ⟨S10000x256, .f32⟩
  | .local _ .vmem, ⟨2, _⟩ => ⟨S10000x8, .f32⟩
  | .local _ .vmem, ⟨3, _⟩ => ⟨S10000x8, .f32⟩
  | .local _ .vmem, ⟨4, _⟩ => ⟨S10000x128, .f32⟩
  | .local _ .vmem, ⟨5, _⟩ => ⟨S10000x128, .f32⟩
  | .local _ .vmem, ⟨6, _⟩ => ⟨S10000x8, .f32⟩
  | .local _ .vmem, ⟨7, _⟩ => ⟨S10000x8, .f32⟩
  | .local _ .vmem, ⟨8, _⟩ => ⟨S1x10000x128, .f32⟩
  | .local _ .vmem, ⟨9, _⟩ => ⟨S1x10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S10000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S10000x256_S10000x256_0_0 : ∀ a, (![0, 0] : Fin 2 → Nat) a + S10000x256.size a ≤ S10000x256.size a
  h_S10000x256 : 0 < S10000x256.numel
  slices_S10000x256_o0_0_S10000x32 : S10000x256.Slices ![0, 0] S10000x32
  reduces_S10000x32_S10000 : S10000x32.Reduces [1] S10000
  shapeCasts_S10000_S10000x1 : S10000.ShapeCasts S10000x1
  slices_S10000x256_o0_32_S10000x32 : S10000x256.Slices ![0, 32] S10000x32
  slices_S10000x256_o0_64_S10000x32 : S10000x256.Slices ![0, 64] S10000x32
  slices_S10000x256_o0_96_S10000x32 : S10000x256.Slices ![0, 96] S10000x32
  slices_S10000x256_o0_128_S10000x32 : S10000x256.Slices ![0, 128] S10000x32
  slices_S10000x256_o0_160_S10000x32 : S10000x256.Slices ![0, 160] S10000x32
  slices_S10000x256_o0_192_S10000x32 : S10000x256.Slices ![0, 192] S10000x32
  slices_S10000x256_o0_224_S10000x32 : S10000x256.Slices ![0, 224] S10000x32
  concatenates_S10000x1_S10000x1_S10000x1_S10000x1_S10000x1_S10000x1_S10000x1_S10000x1_S10000x8_d1 : Shape.Concatenates [S10000x1, S10000x1, S10000x1, S10000x1, S10000x1, S10000x1, S10000x1, S10000x1] S10000x8 1
  reduces_S10000x8_S8 : S10000x8.Reduces [0] S8
  shapeCasts_S8_S1x8 : S8.ShapeCasts S1x8
  broadcasts_S1x8_S10000x8 : S1x8.Broadcasts S10000x8
  reduces_S10000x8_S10000 : S10000x8.Reduces [1] S10000
  reduces_S10000x1_S1 : S10000x1.Reduces [0] S1
  shapeCasts_S1_S1x1 : S1.ShapeCasts S1x1
  broadcasts_S1x1_S10000x1 : S1x1.Broadcasts S10000x1
  broadcasts_S10000x1_S10000x8 : S10000x1.Broadcasts S10000x8
  natLt_1_32 : 1 < 32
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  iota_S10000x8_d1_w32 : S10000x8.Iotas .tc 32 [1]
  inb_S10000x128_S10000x128_0_0 : ∀ a, (![0, 0] : Fin 2 → Nat) a + S10000x128.size a ≤ S10000x128.size a
  h_S10000x128 : 0 < S10000x128.numel
  broadcasts_S10000x1_S10000x128 : S10000x1.Broadcasts S10000x128
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  bcast_S_S100000x8 : S_.BroadcastsInDim S100000x8 (![] : Fin 0 → Fin S100000x8.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x8.size a ≤ S100000x8.size a
  hwx0_1 : ∀ i : grid0.Coords, EltTy.bits .f32 = 32 ∨ (Rect.block (s := S100000x8) S10000x8.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x8.size a ≤ S100000x8.size a
  hwx1_1 : ∀ i : grid1.Coords, EltTy.bits .f32 = 32 ∨ (Rect.block (s := S100000x8) S10000x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x10000x128.size a ≤ S8x100000x128.size a
  hwx1_2 : ∀ i : grid1.Coords, EltTy.bits .f32 = 32 ∨ (Rect.block (s := S8x100000x128) S1x10000x128.size (cc1_transform_2 i) (hinb1_2 i)).WholeWords (EltTy.packing .f32)

variable [Facts₀]

abbrev win0_0 : Pipeline.Window sig grid0 :=
  Pipeline.Window.ofSpec (Memref.whole main_arg1) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x256 : Shape := ⟨2, ![100000, 256]⟩
abbrev S100000x8x32 : Shape := ⟨3, ![100000, 8, 32]⟩
abbrev S_ : Shape := ⟨0, ![]⟩
abbrev S100000x8 : Shape := ⟨2, ![100000, 8]⟩
abbrev S10x10000x8 : Shape := ⟨3, ![10, 10000, 8]⟩
abbrev S10x8 : Shape := ⟨2, ![10, 8]⟩
abbrev S10x1x8 : Shape := ⟨3, ![10, 1, 8]⟩
abbrev S10x10000 : Shape := ⟨2, ![10, 10000]⟩
abbrev S10 : Shape := ⟨1, ![10]⟩
abbrev S10x1 : Shape := ⟨2, ![10, 1]⟩
abbrev S10x10000x1 : Shape := ⟨3, ![10, 10000, 1]⟩
abbrev S100000 : Shape := ⟨1, ![100000]⟩
abbrev S100000x1 : Shape := ⟨2, ![100000, 1]⟩
abbrev S8x100000 : Shape := ⟨2, ![8, 100000]⟩
abbrev S8x100000x1 : Shape := ⟨3, ![8, 100000, 1]⟩
abbrev S1x100000x128 : Shape := ⟨3, ![1, 100000, 128]⟩
abbrev S8x100000x128 : Shape := ⟨3, ![8, 100000, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x256, .f32⟩
  | .hbm, ⟨2, _⟩ => ⟨S100000x8x32, .f32⟩
  | .hbm, ⟨3, _⟩ => ⟨S_, .f32⟩
  | .hbm, ⟨4, _⟩ => ⟨S100000x8, .f32⟩
  | .hbm, ⟨5, _⟩ => ⟨S_, .f32⟩
  | .hbm, ⟨6, _⟩ => ⟨S100000x8, .f32⟩
  | .hbm, ⟨7, _⟩ => ⟨S100000x8, .f32⟩
  | .hbm, ⟨8, _⟩ => ⟨S10x10000x8, .f32⟩
  | .hbm, ⟨9, _⟩ => ⟨S_, .f32⟩
  | .hbm, ⟨10, _⟩ => ⟨S10x8, .f32⟩
  | .hbm, ⟨11, _⟩ => ⟨S_, .f32⟩
  | .hbm, ⟨12, _⟩ => ⟨S10x8, .f32⟩
  | .hbm, ⟨13, _⟩ => ⟨S10x8, .f32⟩
  | .hbm, ⟨14, _⟩ => ⟨S10x1x8, .f32⟩
  | .hbm, ⟨15, _⟩ => ⟨S10x10000x8, .f32⟩
  | .hbm, ⟨16, _⟩ => ⟨S10x10000x8, .f32⟩
  | .hbm, ⟨17, _⟩ => ⟨S10x10000x8, .f32⟩
  | .hbm, ⟨18, _⟩ => ⟨S_, .f32⟩
  | .hbm, ⟨19, _⟩ => ⟨S10x8, .f32⟩
  | .hbm, ⟨20, _⟩ => ⟨S10x1x8, .f32⟩
  | .hbm, ⟨21, _⟩ => ⟨S10x10000x8, .f32⟩
  | .hbm, ⟨22, _⟩ => ⟨S10x10000x8, .f32⟩
  | .hbm, ⟨23, _⟩ => ⟨S_, .f32⟩
  | .hbm, ⟨24, _⟩ => ⟨S10x10000, .f32⟩
  | .hbm, ⟨25, _⟩ => ⟨S_, .f32⟩
  | .hbm, ⟨26, _⟩ => ⟨S10, .f32⟩
  | .hbm, ⟨27, _⟩ => ⟨S10x1, .f32⟩
  | .hbm, ⟨28, _⟩ => ⟨S10x10000, .f32⟩
  | .hbm, ⟨29, _⟩ => ⟨S10x10000, .f32⟩
  | .hbm, ⟨30, _⟩ => ⟨S10x10000x1, .f32⟩
  | .hbm, ⟨31, _⟩ => ⟨S10x10000x8, .f32⟩
  | .hbm, ⟨32, _⟩ => ⟨S10x10000x8, .f32⟩
  | .hbm, ⟨33, _⟩ => ⟨S100000x8, .f32⟩
  | .hbm, ⟨34, _⟩ => ⟨S_, .f32⟩
  | .hbm, ⟨35, _⟩ => ⟨S100000, .f32⟩
  | .hbm, ⟨36, _⟩ => ⟨S100000x1, .f32⟩
  | .hbm, ⟨37, _⟩ => ⟨S100000x8, .f32⟩
  | .hbm, ⟨38, _⟩ => ⟨S100000x8, .i1⟩
  | .hbm, ⟨39, _⟩ => ⟨S8x100000, .i1⟩
  | .hbm, ⟨40, _⟩ => ⟨S8x100000x1, .i1⟩
  | .hbm, ⟨41, _⟩ => ⟨S1x100000x128, .f32⟩
  | .hbm, ⟨42, _⟩ => ⟨S_, .f32⟩
  | .hbm, ⟨43, _⟩ => ⟨S_, .f32⟩
  | .hbm, ⟨44, _⟩ => ⟨S8x100000x128, .i1⟩
  | .hbm, ⟨45, _⟩ => ⟨S8x100000x128, .f32⟩
  | .hbm, ⟨46, _⟩ => ⟨S8x100000x128, .f32⟩
  | .hbm, ⟨47, _⟩ => ⟨S8x100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  shapeCasts_S100000x256_S100000x8x32 : S100000x256.ShapeCasts S100000x8x32
  reducesTo_S100000x8x32_S100000x8_d2 : S100000x8x32.ReducesTo [2] S100000x8
  h_S_ : 0 < S_.numel
  bcast_S_S100000x8 : S_.BroadcastsInDim S100000x8 (![] : Fin 0 → Fin S100000x8.rank)
  shapeCasts_S100000x8_S10x10000x8 : S100000x8.ShapeCasts S10x10000x8
  reducesTo_S10x10000x8_S10x8_d1 : S10x10000x8.ReducesTo [1] S10x8
  bcast_S_S10x8 : S_.BroadcastsInDim S10x8 (![] : Fin 0 → Fin S10x8.rank)
  bcast_S10x8_S10x1x8_0_2 : S10x8.BroadcastsInDim S10x1x8 (![0, 2] : Fin 2 → Fin S10x1x8.rank)
  bcast_S10x1x8_S10x10000x8_0_1_2 : S10x1x8.BroadcastsInDim S10x10000x8 (![0, 1, 2] : Fin 3 → Fin S10x10000x8.rank)
  reducesTo_S10x10000x8_S10x10000_d2 : S10x10000x8.ReducesTo [2] S10x10000
  reducesTo_S10x10000_S10_d1 : S10x10000.ReducesTo [1] S10
  bcast_S10_S10x1_0 : S10.BroadcastsInDim S10x1 (![0] : Fin 1 → Fin S10x1.rank)
  bcast_S10x1_S10x10000_0_1 : S10x1.BroadcastsInDim S10x10000 (![0, 1] : Fin 2 → Fin S10x10000.rank)
  bcast_S10x10000_S10x10000x1_0_1 : S10x10000.BroadcastsInDim S10x10000x1 (![0, 1] : Fin 2 → Fin S10x10000x1.rank)
  bcast_S10x10000x1_S10x10000x8_0_1_2 : S10x10000x1.BroadcastsInDim S10x10000x8 (![0, 1, 2] : Fin 3 → Fin S10x10000x8.rank)
  shapeCasts_S10x10000x8_S100000x8 : S10x10000x8.ShapeCasts S100000x8
  reducesTo_S100000x8_S100000_d1 : S100000x8.ReducesTo [1] S100000
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  transposes_S100000x8_S8x100000_1_0 : S100000x8.Transposes [1, 0] S8x100000
  bcast_S8x100000_S8x100000x1_0_1 : S8x100000.BroadcastsInDim S8x100000x1 (![0, 1] : Fin 2 → Fin S8x100000x1.rank)
  bcast_S100000x128_S1x100000x128_1_2 : S100000x128.BroadcastsInDim S1x100000x128 (![1, 2] : Fin 2 → Fin S1x100000x128.rank)
  bcast_S8x100000x1_S8x100000x128_0_1_2 : S8x100000x1.BroadcastsInDim S8x100000x128 (![0, 1, 2] : Fin 3 → Fin S8x100000x128.rank)
  bcast_S1x100000x128_S8x100000x128_0_1_2 : S1x100000x128.BroadcastsInDim S8x100000x128 (![0, 1, 2] : Fin 3 → Fin S8x100000x128.rank)
  bcast_S_S8x100000x128 : S_.BroadcastsInDim S8x100000x128 (![] : Fin 0 → Fin S8x100000x128.rank)

variable [Facts₀]

class Facts : Prop extends Facts₀ where

variable [Facts]
-- ==== Proof.Spec.lean ====
/-
  What the two programs compute, as functions of the argument arrays over the extended reals; no program appears here.

  The 100000 nodes are handled in 10 chunks of 10000 consecutive rows. Within one chunk, writing φ r c for the mean of
  the c-th group of 32 consecutive entries of row r (8 groups):
    colMax c   = the maximum over the chunk's rows of φ r c
    expo r c   = exp (φ r c − colMax c)
    denom c    = the sum over the rows of expo r c
    soft r c   = expo r c / denom c            (the softmax down each column of the chunk)
    rowSum r   = the sum over c of soft r c
    total      = the sum over the rows of rowSum r
    weight r c = soft r c · (total − rowSum r)
    rowMax r   = the maximum over c of weight r c
    hit r c    = (weight r c = rowMax r)
  The second result is hit at every node; the first copies the node's features into part c when hit holds and is zero
  otherwise. A maximum is the fold of max from the word of −∞.
-/
import Idealize.ShloMosaic.Lib.ValueIdx
import Idealize.ShloMosaic.PureOps.Ideal.Laws

noncomputable section

namespace Cert.NodeMask

open Idealize.ShloMosaic Idealize.ShloMosaic.ValueIdx
open scoped BigOperators

/-- The word every maximum starts from; it denotes −∞. -/
abbrev negInf : EReal := Ideal.ofBits .f32 0xFF800000#32

section Chunk
variable (φ : Fin 10000 → Fin 8 → EReal)

def colMax (c : Fin 8) : EReal := (Finset.univ : Finset (Fin 10000)).fold max negInf (fun r => φ r c)
def expo (r : Fin 10000) (c : Fin 8) : EReal := Ideal.exp (φ r c - colMax φ c)
def denom (c : Fin 8) : EReal := ∑ r : Fin 10000, expo φ r c
def soft (r : Fin 10000) (c : Fin 8) : EReal := Ideal.div (expo φ r c) (denom φ c)
def rowSum (r : Fin 10000) : EReal := ∑ c : Fin 8, soft φ r c
def total : EReal := ∑ r : Fin 10000, rowSum φ r
def weight (r : Fin 10000) (c : Fin 8) : EReal := soft φ r c * (total φ - rowSum φ r)
def rowMax (r : Fin 10000) : EReal := (Finset.univ : Finset (Fin 8)).fold max negInf (fun c => weight φ r c)
def hit (r : Fin 10000) (c : Fin 8) : BitVec 1 := Ideal.cmp .oeq (weight φ r c) (rowMax φ r)

end Chunk

/-- Column 32·c + k of a row of 256: entry k of group c. -/
def groupCol (c : Fin 8) (k : Fin 32) : Fin 256 := ⟨32 * c.val + k.val, by omega⟩

/-- The mean of group c of row n of an array with 256 columns: the sum of the group's 32 entries times the word of 1/32. -/
def groupMean {N : ℕ} (z : (⟨2, ![N, 256]⟩ : Shape).Idx → EReal) (n : Fin N) (c : Fin 8) : EReal :=
  (∑ k : Fin 32, z (ix2 n (groupCol c k))) * Ideal.ofBits .f32 0x3D000000#32

/-- Row r of chunk q is node 10000·q + r. -/
def chunkRow (q : Fin 10) (r : Fin 10000) : Fin 100000 := ⟨q.val * 10000 + r.val, by omega⟩
/-- The chunk a node lies in, and its row there. -/
def chunkOf (n : Fin 100000) : Fin 10 := ⟨n.val / 10000, by omega⟩
def rowIn (n : Fin 100000) : Fin 10000 := ⟨n.val % 10000, by omega⟩

theorem chunkOf_chunkRow (q : Fin 10) (r : Fin 10000) : chunkOf (chunkRow q r) = q :=
  Fin.ext (by show (q.val * 10000 + r.val) / 10000 = q.val; omega)
theorem rowIn_chunkRow (q : Fin 10) (r : Fin 10000) : rowIn (chunkRow q r) = r :=
  Fin.ext (by show (q.val * 10000 + r.val) % 10000 = r.val; omega)
theorem chunkRow_chunkOf (n : Fin 100000) : chunkRow (chunkOf n) (rowIn n) = n :=
  Fin.ext (by show n.val / 10000 * 10000 + n.val % 10000 = n.val; omega)

/-- The group means of chunk q of the whole array. -/
def phi (z : (⟨2, ![100000, 256]⟩ : Shape).Idx → EReal) (q : Fin 10) : Fin 10000 → Fin 8 → EReal :=
  fun r c => groupMean z (chunkRow q r) c

/-- Whether community c is one of node n's heaviest. -/
def maskBit (z : (⟨2, ![100000, 256]⟩ : Shape).Idx → EReal) (n : Fin 100000) (c : Fin 8) : BitVec 1 :=
  hit (phi z (chunkOf n)) (rowIn n) c

/-- The same bit widened to a word and converted: 1 or 0 as an extended real. -/
def bitVal (b : BitVec 1) : EReal := (((b.setWidth 32).toInt : ℝ) : EReal)

/-- The second result: the bit at every node and community. -/
def nodeMask (z : (⟨2, ![100000, 256]⟩ : Shape).Idx → EReal) : (⟨2, ![100000, 8]⟩ : Shape).Idx → BitVec 1 :=
  fun i => maskBit z (i 0) (i 1)

/-- The first result: part c holds node n's features where the bit is set and the zero word elsewhere. -/
def parts (x : (⟨2, ![100000, 128]⟩ : Shape).Idx → EReal) (z : (⟨2, ![100000, 256]⟩ : Shape).Idx → EReal) :
    (⟨3, ![8, 100000, 128]⟩ : Shape).Idx → EReal :=
  fun i => Scalar.select (maskBit z (i 1) (i 0)) (x (ix2 (i 1) (i 2))) (Ideal.ofBits .f32 0x00000000#32)

/-! ## One bit as a number -/

theorem bit_cases : ∀ b : BitVec 1, b = 0#1 ∨ b = 1#1 := by decide

theorem bitVal_zero : bitVal 0#1 = 0 := by
  show ((((0#1 : BitVec 1).setWidth 32).toInt : ℝ) : EReal) = 0
  simp
theorem bitVal_one : bitVal 1#1 = 1 := by
  show ((((1#1 : BitVec 1).setWidth 32).toInt : ℝ) : EReal) = 1
  simp

/-- Multiplying by the bit's value keeps the entry or gives the zero word: a product with 1 or with 0, which on the
    extended reals is the entry or 0 whatever the entry is. -/
theorem mul_bitVal (x : EReal) (b : BitVec 1) :
    x * bitVal b = Scalar.select b x (Ideal.ofBits .f32 0x00000000#32) := by
  rcases bit_cases b with rfl | rfl
  · rw [bitVal_zero, mul_zero, Ideal.ofBits_zero_f32]; rfl
  · rw [bitVal_one, mul_one]; rfl

/-- The bit's value differs from the zero word exactly when the bit is set. -/
theorem une_bitVal (b : BitVec 1) : Ideal.cmp .une (bitVal b) (Ideal.ofBits .f32 0x00000000#32) = b := by
  rcases bit_cases b with rfl | rfl
  · rw [bitVal_zero, Ideal.ofBits_zero_f32]; simp [Ideal.cmp]
  · rw [bitVal_one, Ideal.ofBits_zero_f32]; simp [Ideal.cmp]

end Cert.NodeMask

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.LibColumnSum.lean ====
/-
  The sum down the rows of a matrix, read at a column (a general lemma file: it imports only the library and is
  generic in the extents).

  A reduction of an [a, b] array along its first axis leaves a vector of length b; at column j it is the plain finite sum
  over the rows r of the entry (r, j), with every index spelt by its coordinates.
-/
import Idealize.ShloMosaic.Lib.ValueIdx
import Idealize.ShloMosaic.PureOps.Ideal.Laws

open scoped BigOperators

namespace Cert.LibColumnSum

open Idealize.ShloMosaic Idealize.ShloMosaic.ValueIdx

/-- Over [a, b] reduced along its rows, the index above column j with coordinate r is (r, j). -/
theorem lift_ab_first {a b : ℕ} (h : Shape.Reduces ⟨2, ![a, b]⟩ [0] ⟨1, ![b]⟩) (j : Fin b) (r : Fin a) :
    h.lift (ix1 j) r = ix2 r j := by
  funext x
  match x with
  | ⟨0, _⟩ => exact Fin.ext rfl
  | ⟨1, _⟩ => exact Fin.ext rfl

/-- The sum down the rows of an [a, b] array of extended reals, at column j. -/
theorem sum_ab_first {a b : ℕ} (src : FVec Ideal ⟨2, ![a, b]⟩ .f32)
    (h : Shape.Reduces ⟨2, ![a, b]⟩ [0] ⟨1, ![b]⟩) (hacc : (0x00000000#32 : BitVec 32) = 0x00000000#32) (j : Fin b) :
    multiReduction (s := ⟨2, ![a, b]⟩) .add ([0] : List (Fin 2)) ⟨1, ![b]⟩ src 0x00000000#32 h (.inl rfl) hacc (ix1 j)
      = ∑ r : Fin a, src (ix2 r j) :=
  (Ideal.multiReduction_add_single src 0x00000000#32 h (.inl rfl) hacc (ix1 j)).trans
    (Finset.sum_congr rfl fun r _ => congrArg src (lift_ab_first h j r))

end Cert.LibColumnSum
-- ==== Proof.LibColumnMax.lean ====
/-
  The maximum down the rows of a matrix, read at a column (a general lemma file: it imports only the library and is
  generic in the extents).

  A maximum-reduction of an [a, b] array along its first axis leaves a vector of length b; at column j it is the fold of
  max, started from the value of the word of −∞, over the rows r of the entry (r, j), every index spelt by its
  coordinates.
-/
import Idealize.ShloMosaic.Lib.ValueIdx
import Idealize.ShloMosaic.PureOps.Ideal.Laws

namespace Cert.LibColumnMax

open Idealize.ShloMosaic Idealize.ShloMosaic.ValueIdx

/-- Over [a, b] reduced along its rows, the index above column j with coordinate r is (r, j). -/
theorem lift_ab_first {a b : ℕ} (h : Shape.Reduces ⟨2, ![a, b]⟩ [0] ⟨1, ![b]⟩) (j : Fin b) (r : Fin a) :
    h.lift (ix1 j) r = ix2 r j := by
  funext x
  match x with
  | ⟨0, _⟩ => exact Fin.ext rfl
  | ⟨1, _⟩ => exact Fin.ext rfl

/-- The maximum down the rows of an [a, b] array of extended reals, at column j. -/
theorem max_ab_first {a b : ℕ} (src : FVec Ideal ⟨2, ![a, b]⟩ .f32)
    (h : Shape.Reduces ⟨2, ![a, b]⟩ [0] ⟨1, ![b]⟩) (hacc : (0xFF800000#32 : BitVec 32) = 0xFF800000#32) (j : Fin b) :
    multiReduction (s := ⟨2, ![a, b]⟩) .maximumf ([0] : List (Fin 2)) ⟨1, ![b]⟩ src 0xFF800000#32 h (.inl rfl) hacc (ix1 j)
      = (Finset.univ : Finset (Fin a)).fold max (Ideal.ofBits .f32 0xFF800000#32) (fun r => src (ix2 r j)) :=
  (Ideal.multiReduction_maximumf_single src 0xFF800000#32 h (.inl rfl) hacc (ix1 j)).trans
    (Finset.fold_congr fun r _ => congrArg src (lift_ab_first h j r))

end Cert.LibColumnMax
-- ==== Proof.MaskBlock.lean ====
/-
  One chunk of 10000 rows: what the first kernel stores for it, entry by entry.

  From the chunk's [10000, 256] block the body takes, for each of the 8 groups, the sum of the group's 32 columns
  times the word of 1/32 (a column of means), sets the 8 columns side by side, and then runs the chain of the
  specification on that [10000, 8] array: the maximum and the sum down each column, the quotient, the sum along each row,
  the sum of those, the product, the maximum along each row, and the comparison with it, written as the number 1 or 0.
-/
import proofs.«136998_j13365938225811_2_alg».proof.Proof.Gen.KernelIdeal.Skeleton
import proofs.«136998_j13365938225811_2_alg».proof.Proof.Spec
import proofs.«136998_j13365938225811_2_alg».proof.Proof.LibLayout3
import proofs.«136998_j13365938225811_2_alg».proof.Proof.LibColumnSum
import proofs.«136998_j13365938225811_2_alg».proof.Proof.LibColumnMax
import Idealize.ShloMosaic.Lib.ValueLayout
import Idealize.ShloMosaic.Lib.Pipeline.Value
import Idealize.ShloMosaic.PureOps.Ideal.Laws

noncomputable section

namespace Cert.KernelIdeal.MaskBlock

open Idealize.ShloMosaic Idealize.ShloMosaic.ValueIdx Cert.KernelIdeal Cert.KernelIdeal.Gen Cert.NodeMask
open scoped BigOperators

/-- The mean of one group of 32 columns, as the body spells it: the slice starting at column 32·c, its sum along the
    row, the cast of the sums to a column, times the word of 1/32. -/
theorem col_mean (off : ℕ) (c : Fin 8) (hoff : off = 32 * c.val) (x0 : FVec Ideal S10000x256 .f32)
    (h : S10000x256.Slices ![0, off] S10000x32) (r : Fin 10000) :
    mulf (shapeCast S10000x1 (multiReduction .add [1] S10000 (extractStridedSlice S10000x32 ![0, off] x0 h) 0x00000000#32
        reduces_S10000x32_S10000 (.inl rfl) rfl) shapeCasts_S10000_S10000x1)
      (broadcast S10000x1 (Scalar.ofBits .f32 0x3D000000#32)) (ix2 r (0 : Fin 1)) = groupMean x0 r c := by
  refine (mulf_apply _ _ _).trans ?_
  refine congrArg₂ (· * ·) ?_ rfl
  refine (Cert.LibLayout3.shapeCast_a_a1_apply _ _ r 0).trans ?_
  refine (Cert.LibLayout3.sum_ab_last _ _ rfl r).trans ?_
  refine Finset.sum_congr rfl fun k _ => ?_
  refine extractStridedSlice_apply _ x0 h (ix2 r k) (ix2 r (groupCol c k)) fun a => ?_
  match a with
  | ⟨0, _⟩ => exact (Nat.zero_add _).symm
  | ⟨1, _⟩ => show 32 * c.val + k.val = off + k.val; omega

/-- Eight columns set side by side: entry (r, c) of the result is column c at row r. -/
theorem concat8_apply {α : Type} (v : Fin 8 → (S10000x1.Idx → α))
    (h : Shape.Concatenates (([⟨S10000x1, v 0⟩, ⟨S10000x1, v 1⟩, ⟨S10000x1, v 2⟩, ⟨S10000x1, v 3⟩, ⟨S10000x1, v 4⟩,
      ⟨S10000x1, v 5⟩, ⟨S10000x1, v 6⟩, ⟨S10000x1, v 7⟩] : List ((s : Shape) × (s.Idx → α))).map (·.1)) S10000x8 1)
    (r : Fin 10000) (c : Fin 8) :
    concatenate S10000x8 1 [⟨S10000x1, v 0⟩, ⟨S10000x1, v 1⟩, ⟨S10000x1, v 2⟩, ⟨S10000x1, v 3⟩, ⟨S10000x1, v 4⟩,
      ⟨S10000x1, v 5⟩, ⟨S10000x1, v 6⟩, ⟨S10000x1, v 7⟩] h (ix2 r c) = v c (ix2 r (0 : Fin 1)) := by
  have hi : ∀ b : Fin S10000x1.rank, b.cast (rfl : S10000x1.rank = S10000x8.rank) ≠ (1 : Fin S10000x8.rank) →
      ((ix2 r (0 : Fin 1) : S10000x1.Idx) b).val = ((ix2 r c : S10000x8.Idx) (b.cast rfl)).val := fun b hb => by
    match b with
    | ⟨0, _⟩ => rfl
    | ⟨1, _⟩ => exact absurd rfl hb
  match c with
  | ⟨0, _⟩ => exact concatenate_apply_piece 1 _ h _ 0 (by simp) S10000x1 (v 0) rfl rfl 0 rfl (ix2 r 0) hi rfl
  | ⟨1, _⟩ => exact concatenate_apply_piece 1 _ h _ 1 (by simp) S10000x1 (v 1) rfl rfl 1 rfl (ix2 r 0) hi rfl
  | ⟨2, _⟩ => exact concatenate_apply_piece 1 _ h _ 2 (by simp) S10000x1 (v 2) rfl rfl 2 rfl (ix2 r 0) hi rfl
  | ⟨3, _⟩ => exact concatenate_apply_piece 1 _ h _ 3 (by simp) S10000x1 (v 3) rfl rfl 3 rfl (ix2 r 0) hi rfl
  | ⟨4, _⟩ => exact concatenate_apply_piece 1 _ h _ 4 (by simp) S10000x1 (v 4) rfl rfl 4 rfl (ix2 r 0) hi rfl
  | ⟨5, _⟩ => exact concatenate_apply_piece 1 _ h _ 5 (by simp) S10000x1 (v 5) rfl rfl 5 rfl (ix2 r 0) hi rfl
  | ⟨6, _⟩ => exact concatenate_apply_piece 1 _ h _ 6 (by simp) S10000x1 (v 6) rfl rfl 6 rfl (ix2 r 0) hi rfl
  | ⟨7, _⟩ => exact concatenate_apply_piece 1 _ h _ 7 (by simp) S10000x1 (v 7) rfl rfl 7 rfl (ix2 r 0) hi rfl

/-- The chain of the specification on eight columns of means: the stored entry (r, c) is the number of the bit
    "weight r c is the largest weight of row r". Each stage is read at an entry from the stage before it. -/
theorem pay1_apply (v : Fin 8 → FVec Ideal S10000x1 .f32) (φ : Fin 10000 → Fin 8 → EReal)
    (hφ : ∀ r c, v c (ix2 r (0 : Fin 1)) = φ r c) (r : Fin 10000) (c : Fin 8) :
    k0_pay1 (v 0) (v 1) (v 2) (v 3) (v 4) (v 5) (v 6) (v 7) (ix2 r c) = bitVal (hit φ r c) := by
  -- the eight columns side by side: the chunk's means
  let v41 : FVec Ideal S10000x8 .f32 := concatenate S10000x8 1 [⟨S10000x1, v 0⟩, ⟨S10000x1, v 1⟩, ⟨S10000x1, v 2⟩,
    ⟨S10000x1, v 3⟩, ⟨S10000x1, v 4⟩, ⟨S10000x1, v 5⟩, ⟨S10000x1, v 6⟩, ⟨S10000x1, v 7⟩]
    concatenates_S10000x1_S10000x1_S10000x1_S10000x1_S10000x1_S10000x1_S10000x1_S10000x1_S10000x8_d1
  have h41 : ∀ r c, v41 (ix2 r c) = φ r c := fun r c => (concat8_apply v _ r c).trans (hφ r c)
  -- the maximum down each column, as a row, over every row
  let v44 : FVec Ideal S10000x8 .f32 := broadcastTo S10000x8 (shapeCast S1x8 (multiReduction .maximumf [0] S8 v41 0xFF800000#32
    reduces_S10000x8_S8 (.inl rfl) rfl) shapeCasts_S8_S1x8) broadcasts_S1x8_S10000x8
  have h44 : ∀ r c, v44 (ix2 r c) = colMax φ c := fun r c =>
    (broadcastTo_1b_ab_apply _ _ r c).trans ((shapeCast_a_1a_apply _ _ 0 c).trans
      ((Cert.LibColumnMax.max_ab_first v41 _ rfl c).trans (Finset.fold_congr fun r' _ => h41 r' c)))
  let v46 : FVec Ideal S10000x8 .f32 := exp (subf v41 v44)
  have h46 : ∀ r c, v46 (ix2 r c) = expo φ r c := fun r c => by
    show Ideal.exp (v41 (ix2 r c) - v44 (ix2 r c)) = _
    rw [h41, h44]; rfl
  -- the sum down each column
  let v49 : FVec Ideal S10000x8 .f32 := broadcastTo S10000x8 (shapeCast S1x8 (multiReduction .add [0] S8 v46 0x00000000#32
    reduces_S10000x8_S8 (.inl rfl) rfl) shapeCasts_S8_S1x8) broadcasts_S1x8_S10000x8
  have h49 : ∀ r c, v49 (ix2 r c) = denom φ c := fun r c =>
    (broadcastTo_1b_ab_apply _ _ r c).trans ((shapeCast_a_1a_apply _ _ 0 c).trans
      ((Cert.LibColumnSum.sum_ab_first v46 _ rfl c).trans (Finset.sum_congr rfl fun r' _ => h46 r' c)))
  let v50 : FVec Ideal S10000x8 .f32 := divf v46 v49
  have h50 : ∀ r c, v50 (ix2 r c) = soft φ r c := fun r c => by
    show Ideal.div (v46 (ix2 r c)) (v49 (ix2 r c)) = _
    rw [h46, h49]; rfl
  -- the sum along each row, as a column
  let v52 : FVec Ideal S10000x1 .f32 := shapeCast S10000x1 (multiReduction .add [1] S10000 v50 0x00000000#32
    reduces_S10000x8_S10000 (.inl rfl) rfl) shapeCasts_S10000_S10000x1
  have h52 : ∀ r, v52 (ix2 r (0 : Fin 1)) = rowSum φ r := fun r =>
    (Cert.LibLayout3.shapeCast_a_a1_apply _ _ r 0).trans
      ((Cert.LibLayout3.sum_ab_last v50 _ rfl r).trans (Finset.sum_congr rfl fun c' _ => h50 r c'))
  -- the sum of that column, over every row
  let v55 : FVec Ideal S10000x1 .f32 := broadcastTo S10000x1 (shapeCast S1x1 (multiReduction .add [0] S1 v52 0x00000000#32
    reduces_S10000x1_S1 (.inl rfl) rfl) shapeCasts_S1_S1x1) broadcasts_S1x1_S10000x1
  have h55 : ∀ r, v55 (ix2 r (0 : Fin 1)) = total φ := fun r =>
    (broadcastTo_1b_ab_apply _ _ r 0).trans ((shapeCast_a_1a_apply _ _ 0 0).trans
      ((Cert.LibLayout3.sum_a1_first v52 _ rfl 0).trans (Finset.sum_congr rfl fun r' _ => h52 r')))
  let v57 : FVec Ideal S10000x8 .f32 := broadcastTo S10000x8 (subf v55 v52) broadcasts_S10000x1_S10000x8
  have h57 : ∀ r c, v57 (ix2 r c) = total φ - rowSum φ r := fun r c => by
    refine (Cert.LibLayout3.broadcastTo_a1_ab_apply _ _ r c).trans ?_
    show v55 (ix2 r (0 : Fin 1)) - v52 (ix2 r (0 : Fin 1)) = _
    rw [h55, h52]
  let v58 : FVec Ideal S10000x8 .f32 := mulf v50 v57
  have h58 : ∀ r c, v58 (ix2 r c) = weight φ r c := fun r c => by
    show v50 (ix2 r c) * v57 (ix2 r c) = _
    rw [h50, h57]; rfl
  -- the maximum along each row, over every column
  let v61 : FVec Ideal S10000x8 .f32 := broadcastTo S10000x8 (shapeCast S10000x1 (multiReduction .maximumf [1] S10000 v58 0xFF800000#32
    reduces_S10000x8_S10000 (.inl rfl) rfl) shapeCasts_S10000_S10000x1) broadcasts_S10000x1_S10000x8
  have h61 : ∀ r c, v61 (ix2 r c) = rowMax φ r := fun r c =>
    (Cert.LibLayout3.broadcastTo_a1_ab_apply _ _ r c).trans ((Cert.LibLayout3.shapeCast_a_a1_apply _ _ r 0).trans
      ((Cert.LibLayout3.max_ab_last v58 _ rfl r).trans (Finset.fold_congr fun c' _ => h58 r c')))
  show sitofp .f32 (extui 32 (cmpf .oeq v58 v61) _) (ix2 r c) = _
  rw [sitofp_apply, extui_apply, cmpf_apply, h58, h61]
  rfl

/-- What the body stores for a chunk whose block is x0: at (r, c), the number of the bit "community c is one of row
    r's heaviest", the chunk's means being the group means of x0. -/
theorem block_apply (x0 : FVec Ideal S10000x256 .f32) (r : Fin 10000) (c : Fin 8) :
    k0_pay1 (F := Ideal) (k0_pay2 (F := Ideal) x0) (k0_pay3 (F := Ideal) x0) (k0_pay4 (F := Ideal) x0) (k0_pay5 (F := Ideal) x0) (k0_pay6 (F := Ideal) x0) (k0_pay7 (F := Ideal) x0) (k0_pay8 (F := Ideal) x0) (k0_pay9 (F := Ideal) x0) (ix2 r c)
      = bitVal (hit (fun r c => groupMean x0 r c) r c) :=
  pay1_apply ![k0_pay2 (F := Ideal) x0, k0_pay3 (F := Ideal) x0, k0_pay4 (F := Ideal) x0, k0_pay5 (F := Ideal) x0, k0_pay6 (F := Ideal) x0, k0_pay7 (F := Ideal) x0, k0_pay8 (F := Ideal) x0, k0_pay9 (F := Ideal) x0]
    (fun r c => groupMean x0 r c) (fun r c => by
      match c with
      | ⟨0, _⟩ => exact col_mean 0 0 rfl x0 _ r
      | ⟨1, _⟩ => exact col_mean 32 1 rfl x0 _ r
      | ⟨2, _⟩ => exact col_mean 64 2 rfl x0 _ r
      | ⟨3, _⟩ => exact col_mean 96 3 rfl x0 _ r
      | ⟨4, _⟩ => exact col_mean 128 4 rfl x0 _ r
      | ⟨5, _⟩ => exact col_mean 160 5 rfl x0 _ r
      | ⟨6, _⟩ => exact col_mean 192 6 rfl x0 _ r
      | ⟨7, _⟩ => exact col_mean 224 7 rfl x0 _ r) r c

end Cert.KernelIdeal.MaskBlock

end
-- ==== Proof.PartsBlock.lean ====
/-
  One tile of the second kernel: what it stores, entry by entry.

  At the grid point with community coordinate cc the body takes the [10000, 8] tile of the mask, keeps column cc and
  zeroes the others (a select on "column number = cc"), sums along each row — the sum of one kept entry and seven
  zeros is the kept entry — and multiplies every feature of row r by it.
-/
import proofs.«136998_j13365938225811_2_alg».proof.Proof.Gen.KernelIdeal.Skeleton
import proofs.«136998_j13365938225811_2_alg».proof.Proof.LibLayout3
import Idealize.ShloMosaic.Lib.ValueLayout
import Idealize.ShloMosaic.Lib.Pipeline.Value
import Idealize.ShloMosaic.Lib.Affine
import Idealize.ShloMosaic.PureOps.Ideal.Laws

noncomputable section

namespace Cert.KernelIdeal.PartsBlock

open Idealize.ShloMosaic Idealize.ShloMosaic.ValueIdx Cert.KernelIdeal Cert.KernelIdeal.Gen
open scoped BigOperators

/-- Two column numbers below 8 written as 32-bit words are the same word exactly when they are the same number. -/
theorem ofNat_eq_iff (j cc : Fin 8) (n : ℕ) (hn : n = cc.val) :
    (BitVec.ofNat 32 j.val = BitVec.ofNat 32 n) ↔ j = cc := by
  subst hn
  constructor
  · intro h
    have := congrArg BitVec.toNat h
    simp only [BitVec.toNat_ofNat] at this
    have hj := j.isLt; have hc := cc.isLt
    exact Fin.ext (by omega)
  · rintro rfl; rfl

theorem parts_apply (i : grid1.Coords) (cc : Fin 8) (hcc : (i 1).val = cc.val)
    (mk : FVec Ideal S10000x8 .f32) (x : FVec Ideal S10000x128 .f32) (u : Fin 1) (r : Fin 10000) (f : Fin 128) :
    k1_pay1 i mk x (ix3 u r f) = x (ix2 r f) * mk (ix2 r cc) := by
  -- the tile with every column but cc zeroed
  let v6 : FVec Ideal S10000x8 .f32 := select (cmpi .eq (iota .tc S10000x8 32 [1] iota_S10000x8_d1_w32)
      (broadcast S10000x8 (BitVec.ofNat 32 (i 1).val))) (shapeCast S10000x8 mk shapeCasts_S10000x8_S10000x8)
    (broadcast S10000x8 (Scalar.ofBits .f32 0x00000000#32))
  have h6 : ∀ (r : Fin 10000) (j : Fin 8), v6 (ix2 r j) = if j = cc then mk (ix2 r j) else 0 := fun r j => by
    show Scalar.select (IntOp.cmpi .eq (iota .tc S10000x8 32 [1] iota_S10000x8_d1_w32 (ix2 r j)) (BitVec.ofNat 32 (i 1).val))
      (shapeCast S10000x8 mk shapeCasts_S10000x8_S10000x8 (ix2 r j)) (Ideal.ofBits .f32 0x00000000#32) = _
    rw [iota_single_apply, shapeCast_self, Ideal.ofBits_zero_f32]
    show (if IntOp.cmpi .eq (BitVec.ofNat 32 j.val) (BitVec.ofNat 32 (i 1).val) = 1 then mk (ix2 r j) else 0) = _
    exact if_congr (IntOp.cmpi_eq.trans (ofNat_eq_iff j cc _ hcc)) rfl rfl
  -- its sum along each row, as a column, over every feature
  let v10 : FVec Ideal S10000x128 .f32 := broadcastTo S10000x128 (shapeCast S10000x1 (multiReduction .add [1] S10000 v6 0x00000000#32
    reduces_S10000x8_S10000 (.inl rfl) rfl) shapeCasts_S10000_S10000x1) broadcasts_S10000x1_S10000x128
  have h10 : ∀ (r : Fin 10000) (f : Fin 128), v10 (ix2 r f) = mk (ix2 r cc) := fun r f =>
    (Cert.LibLayout3.broadcastTo_a1_ab_apply _ _ r f).trans ((Cert.LibLayout3.shapeCast_a_a1_apply _ _ r 0).trans
      ((Cert.LibLayout3.sum_ab_last v6 _ rfl r).trans
        ((Finset.sum_congr rfl fun j _ => h6 r j).trans (Finset.sum_ite_eq' Finset.univ cc _ |>.trans (if_pos (Finset.mem_univ _))))))
  show shapeCast S1x10000x128 (mulf x v10) shapeCasts_S10000x128_S1x10000x128 (ix3 u r f) = _
  refine (shapeCast_ab_1ab_apply _ _ u r f).trans ?_
  show x (ix2 r f) * v10 (ix2 r f) = _
  rw [h10]

end Cert.KernelIdeal.PartsBlock

end
-- ==== Proof.KernelArrays.lean ====
/-
  From blocks to arrays, for both kernels, at any contents V of the buffers when a kernel starts.

  The first kernel's grid has one point per chunk; point t reads rows 10000·t … 10000·t + 9999 of the [100000, 256]
  array and writes the same rows of the [100000, 8] mask. What it writes is the block of one whole-array function
  (the number of the specification's bit at every node and community), and the ten blocks tile the mask, so the mask
  ends holding that function.

  The second kernel's grid has one point per (row tile i, community cc); it reads row tile i of the features and of the
  mask and writes tile (cc, i) of the [8, 100000, 128] result: entry (cc, n, f) is feature f of node n times the mask's
  entry (n, cc). The eighty blocks tile the result.
-/
import proofs.«136998_j13365938225811_2_alg».proof.Proof.KernelIdealFrameP
import proofs.«136998_j13365938225811_2_alg».proof.Proof.MaskBlock
import proofs.«136998_j13365938225811_2_alg».proof.Proof.PartsBlock
import proofs.«136998_j13365938225811_2_alg».proof.Proof.Spec
import Idealize.ShloMosaic.Lib.Pipeline.Value

set_option maxRecDepth 16384

noncomputable section

namespace Cert.KernelIdeal.Arrays

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.KernelIdeal.GenP Cert.NodeMask
open scoped BigOperators

variable (V : (c : Dev nD) → (b : Ref sig .tc) → Buf (Elt Ideal) ((c : Thread nD τ).loc b))

/-- The mask as numbers: 1 where the specification's bit is set, 0 elsewhere. -/
def maskArr (z : S100000x256.Idx → EReal) : S100000x8.Idx → EReal := fun i => bitVal (maskBit z (i 0) (i 1))

/-- Features times a [100000, 8] array of factors, one part per column of factors. -/
def partsArr (x : S100000x128.Idx → EReal) (mk : S100000x8.Idx → EReal) : S8x100000x128.Idx → EReal :=
  fun i => x (ix2 (i 1) (i 2)) * mk (ix2 (i 1) (i 0))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first kernel -/

/-- Its index maps, decided over the ten points: block t of both windows starts at row 10000·t, column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 ∧ t.val < 10 :=
  (by decide +kernel : ∀ t : Fin grid0.N, _)

/-- The input block at point t, read at (r, g): row r of chunk t of the array. -/
theorem iblk0_apply (c : Dev nD) (t : Fin cfg0.N) (q : Fin 10) (hq : q.val = t.val) (r : Fin 10000) (g : Fin 256) :
    iblk0 V c 0 t (ix2 r g) = V c main_arg1 (ix2 (chunkRow q r) g) := by
  show V c main_arg1 (((cfg0.win 0).blk t).view.emb (ix2 r g)) = _
  refine congrArg (V c main_arg1) ?_
  obtain ⟨e0, e1, -, -, -⟩ := idx_facts0 t
  funext a; apply Fin.ext
  match a with
  | ⟨0, _⟩ => show win0_0.index t (0 : Fin 2) * 10000 + 1 * r.val = q.val * 10000 + r.val; rw [e0, hq]; omega
  | ⟨1, _⟩ => show win0_0.index t (1 : Fin 2) * 256 + 1 * g.val = g.val; rw [e1]; omega

/-- Where entry (r, cc) of output block t sits in the mask. -/
theorem emb0_apply (t : Fin cfg0.N) (q : Fin 10) (hq : q.val = t.val) (r : Fin 10000) (cc : Fin 8) :
    ((cfg0.win 1).blk t).view.emb (ix2 r cc) = ix2 (chunkRow q r) cc := by
  obtain ⟨-, -, e0, e1, -⟩ := idx_facts0 t
  funext a; apply Fin.ext
  match a with
  | ⟨0, _⟩ => show win0_1.index t (0 : Fin 2) * 10000 + 1 * r.val = q.val * 10000 + r.val; rw [e0, hq]; omega
  | ⟨1, _⟩ => show win0_1.index t (1 : Fin 2) * 8 + 1 * cc.val = cc.val; rw [e1]; omega

/-- What point t writes back is block t of the mask's numbers. -/
theorem flushed0_eq (c : Dev nD) (t : Fin cfg0.N) :
    (dat0 V c).flushed 1 t = ((cfg0.win 1).blk t).view.read (Elt Ideal) (maskArr (V c main_arg1)) := by
  show (cfg0.win 1).cut (grid0.coords t) ((dat0 V c).after 1 t) = _
  rw [after0_1]
  unfold out0_1
  rw [View.canon_unit_zero hz2]
  simp only [View.ld_unit_zero (S := S10000x256) hz2]
  obtain ⟨-, -, -, -, ht⟩ := idx_facts0 t
  funext j
  obtain ⟨r, cc, rfl⟩ : ∃ (r : Fin 10000) (cc : Fin 8), j = ix2 r cc := ⟨j 0, j 1, eq_ix2 j⟩
  refine (Cert.KernelIdeal.MaskBlock.block_apply (iblk0 V c 0 t) r cc).trans ?_
  show _ = maskArr (V c main_arg1) (((cfg0.win 1).blk t).view.emb (ix2 r cc))
  rw [emb0_apply t ⟨t.val, ht⟩ rfl r cc]
  show _ = bitVal (hit (phi (V c main_arg1) (chunkOf (chunkRow ⟨t.val, ht⟩ r))) (rowIn (chunkRow ⟨t.val, ht⟩ r)) cc)
  rw [chunkOf_chunkRow, rowIn_chunkRow]
  refine congrArg (fun φ => bitVal (hit φ r cc)) ?_
  funext r' c'
  show groupMean (iblk0 V c 0 t) r' c' = groupMean (V c main_arg1) (chunkRow ⟨t.val, ht⟩ r') c'
  unfold groupMean
  exact congrArg (· * _) (Finset.sum_congr rfl fun k _ => iblk0_apply V c t ⟨t.val, ht⟩ rfl r' (groupCol c' k))

theorem mem_blk0 (t : Fin cfg0.N) (i : S100000x8.Idx) :
    i ∈ ((cfg0.win 1).blk t).view.set ↔ ∀ a : Fin 2, win0_1.index t a * S10000x8.size a ≤ (i a).val
      ∧ (i a).val < win0_1.index t a * S10000x8.size a + S10000x8.size a := by
  show i ∈ ((View.whole main_v0).slice (win0_1.rect t)).set ↔ _
  rw [View.set_slice_whole, Rect.mem_set_unit]
  exact Iff.rfl

/-- Every entry of the mask is in the block of its row's chunk. -/
theorem cover0 (i : S100000x8.Idx) :
    ∃ t : Fin cfg0.N, (cfg0.win 1).flush t = true ∧ i ∈ ((cfg0.win 1).blk t).view.set := by
  have hi0 : (i 0).val < 100000 := (i 0).isLt
  have hi1 : (i 1).val < 8 := (i 1).isLt
  have hN : (i 0).val / 10000 < cfg0.N := by show (i 0).val / 10000 < 10; omega
  obtain ⟨-, -, e0, e1, -⟩ := idx_facts0 ⟨(i 0).val / 10000, hN⟩
  refine ⟨⟨(i 0).val / 10000, hN⟩, flush0_1 _, ?_⟩
  rw [mem_blk0]
  intro a
  match a with
  | ⟨0, _⟩ =>
    show win0_1.index ⟨(i 0).val / 10000, hN⟩ (0 : Fin 2) * 10000 ≤ (i 0).val
      ∧ (i 0).val < win0_1.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_1.index ⟨(i 0).val / 10000, hN⟩ (1 : Fin 2) * 8 ≤ (i 1).val
      ∧ (i 1).val < win0_1.index ⟨(i 0).val / 10000, hN⟩ (1 : Fin 2) * 8 + 8
    rw [e1]; omega

/-- The mask after the first kernel: the numbers of the specification's bits. -/
theorem final0 (c : Dev nD) : (dat0 V c).arrAt 1 cfg0.N = maskArr (V c main_arg1) :=
  (dat0 V c).arrAt_eq_of_cover 1 (maskArr (V c main_arg1)) (fun t _ => flushed0_eq V c t) cover0

/-! ## The second kernel -/

/-- Its index maps, decided over the eighty points (i, cc): the two input blocks start at row 10000·i, the output
    block at part cc, row 10000·i. -/
theorem idx_facts1 : ∀ t : Fin cfg1.N,
    win1_0.index t (0 : Fin 2) = (grid1.coords t 0).val ∧ win1_0.index t (1 : Fin 2) = 0
    ∧ win1_1.index t (0 : Fin 2) = (grid1.coords t 0).val ∧ win1_1.index t (1 : Fin 2) = 0
    ∧ win1_2.index t (0 : Fin 3) = (grid1.coords t 1).val ∧ win1_2.index t (1 : Fin 3) = (grid1.coords t 0).val
    ∧ win1_2.index t (2 : Fin 3) = 0
    ∧ (grid1.coords t 0).val < 10 ∧ (grid1.coords t 1).val < 8 :=
  (by decide +kernel : ∀ t : Fin grid1.N, _)

/-- Every (part, row tile) is some point's. -/
theorem idx_onto1 : ∀ (cc : Fin 8) (q : Fin 10), ∃ t : Fin cfg1.N,
    (grid1.coords t 1).val = cc.val ∧ (grid1.coords t 0).val = q.val :=
  (by decide +kernel : ∀ (cc : Fin 8) (q : Fin 10), ∃ t : Fin grid1.N,
    (grid1.coords t 1).val = cc.val ∧ (grid1.coords t 0).val = q.val)

/-- The features' block at point t, read at (r, f). -/
theorem iblk1_0_apply (c : Dev nD) (t : Fin cfg1.N) (q : Fin 10) (hq : q.val = (grid1.coords t 0).val)
    (r : Fin 10000) (f : Fin 128) :
    iblk1 V c 0 t (ix2 r f) = V c main_arg0 (ix2 (chunkRow q r) f) := by
  show V c main_arg0 (((cfg1.win 0).blk t).view.emb (ix2 r f)) = _
  refine congrArg (V c main_arg0) ?_
  obtain ⟨e0, e1, -⟩ := idx_facts1 t
  funext a; apply Fin.ext
  match a with
  | ⟨0, _⟩ => show win1_0.index t (0 : Fin 2) * 10000 + 1 * r.val = q.val * 10000 + r.val; rw [e0, hq]; omega
  | ⟨1, _⟩ => show win1_0.index t (1 : Fin 2) * 128 + 1 * f.val = f.val; rw [e1]; omega

/-- The mask's block at point t, read at (r, j). -/
theorem iblk1_1_apply (c : Dev nD) (t : Fin cfg1.N) (q : Fin 10) (hq : q.val = (grid1.coords t 0).val)
    (r : Fin 10000) (j : Fin 8) :
    iblk1 V c 1 t (ix2 r j) = V c main_v0 (ix2 (chunkRow q r) j) := by
  show V c main_v0 (((cfg1.win 1).blk t).view.emb (ix2 r j)) = _
  refine congrArg (V c main_v0) ?_
  obtain ⟨-, -, e0, e1, -⟩ := idx_facts1 t
  funext a; apply Fin.ext
  match a with
  | ⟨0, _⟩ => show win1_1.index t (0 : Fin 2) * 10000 + 1 * r.val = q.val * 10000 + r.val; rw [e0, hq]; omega
  | ⟨1, _⟩ => show win1_1.index t (1 : Fin 2) * 8 + 1 * j.val = j.val; rw [e1]; omega

/-- Where entry (u, r, f) of output block t sits in the result. -/
theorem emb1_apply (t : Fin cfg1.N) (q : Fin 10) (hq : q.val = (grid1.coords t 0).val) (cc : Fin 8)
    (hcc : cc.val = (grid1.coords t 1).val) (u : Fin 1) (r : Fin 10000) (f : Fin 128) :
    ((cfg1.win 2).blk t).view.emb (ix3 u r f) = ix3 cc (chunkRow q r) f := by
  obtain ⟨-, -, -, -, e0, e1, e2, -⟩ := idx_facts1 t
  have hu : u.val = 0 := by omega
  funext a; apply Fin.ext
  match a with
  | ⟨0, _⟩ => show win1_2.index t (0 : Fin 3) * 1 + 1 * u.val = cc.val; rw [e0, hcc, hu]; omega
  | ⟨1, _⟩ => show win1_2.index t (1 : Fin 3) * 10000 + 1 * r.val = q.val * 10000 + r.val; rw [e1, hq]; omega
  | ⟨2, _⟩ => show win1_2.index t (2 : Fin 3) * 128 + 1 * f.val = f.val; rw [e2]; omega

/-- What point t writes back is block t of features times the mask array the kernel found. -/
theorem flushed1_eq (c : Dev nD) (t : Fin cfg1.N) :
    (dat1 V c).flushed 2 t = ((cfg1.win 2).blk t).view.read (Elt Ideal) (partsArr (V c main_arg0) (V c main_v0)) := by
  show (cfg1.win 2).cut (grid1.coords t) ((dat1 V c).after 2 t) = _
  rw [after1_2]
  unfold out1_2
  rw [View.canon_unit_zero hz3]
  simp only [View.ld_unit_zero (S := S10000x8) hz2, View.ld_unit_zero (S := S10000x128) hz2]
  obtain ⟨-, -, -, -, -, -, -, hq, hcc⟩ := idx_facts1 t
  funext j
  obtain ⟨u, r, f, rfl⟩ : ∃ (u : Fin 1) (r : Fin 10000) (f : Fin 128), j = ix3 u r f := ⟨j 0, j 1, j 2, eq_ix3 j⟩
  refine (Cert.KernelIdeal.PartsBlock.parts_apply (grid1.coords t) ⟨(grid1.coords t 1).val, hcc⟩ rfl
    (iblk1 V c 1 t) (iblk1 V c 0 t) u r f).trans ?_
  show _ = partsArr (V c main_arg0) (V c main_v0) (((cfg1.win 2).blk t).view.emb (ix3 u r f))
  rw [emb1_apply t ⟨(grid1.coords t 0).val, hq⟩ rfl ⟨(grid1.coords t 1).val, hcc⟩ rfl u r f]
  exact congrArg₂ (fun a b : EReal => a * b)
    (iblk1_0_apply V c t ⟨(grid1.coords t 0).val, hq⟩ rfl r f)
    (iblk1_1_apply V c t ⟨(grid1.coords t 0).val, hq⟩ rfl r ⟨(grid1.coords t 1).val, hcc⟩)

theorem mem_blk1 (t : Fin cfg1.N) (i : S8x100000x128.Idx) :
    i ∈ ((cfg1.win 2).blk t).view.set ↔ ∀ a : Fin 3, win1_2.index t a * S1x10000x128.size a ≤ (i a).val
      ∧ (i a).val < win1_2.index t a * S1x10000x128.size a + S1x10000x128.size a := by
  show i ∈ ((View.whole main_v1).slice (win1_2.rect t)).set ↔ _
  rw [View.set_slice_whole, Rect.mem_set_unit]
  exact Iff.rfl

/-- Every entry of the result is in the block of its part and its row's tile. -/
theorem cover1 (i : S8x100000x128.Idx) :
    ∃ t : Fin cfg1.N, (cfg1.win 2).flush t = true ∧ i ∈ ((cfg1.win 2).blk t).view.set := by
  have hi0 : (i 0).val < 8 := (i 0).isLt
  have hi1 : (i 1).val < 100000 := (i 1).isLt
  have hi2 : (i 2).val < 128 := (i 2).isLt
  obtain ⟨t, h1, h0⟩ := idx_onto1 ⟨(i 0).val, hi0⟩ ⟨(i 1).val / 10000, by omega⟩
  obtain ⟨-, -, -, -, e0, e1, e2, -⟩ := idx_facts1 t
  refine ⟨t, flush1_2 t, ?_⟩
  rw [mem_blk1]
  intro a
  match a with
  | ⟨0, _⟩ =>
    show win1_2.index t (0 : Fin 3) * 1 ≤ (i 0).val ∧ (i 0).val < win1_2.index t (0 : Fin 3) * 1 + 1
    rw [e0, h1]; show (i 0).val * 1 ≤ (i 0).val ∧ (i 0).val < (i 0).val * 1 + 1; omega
  | ⟨1, _⟩ =>
    show win1_2.index t (1 : Fin 3) * 10000 ≤ (i 1).val ∧ (i 1).val < win1_2.index t (1 : Fin 3) * 10000 + 10000
    rw [e1, h0]; show (i 1).val / 10000 * 10000 ≤ (i 1).val ∧ (i 1).val < (i 1).val / 10000 * 10000 + 10000; omega
  | ⟨2, _⟩ =>
    show win1_2.index t (2 : Fin 3) * 128 ≤ (i 2).val ∧ (i 2).val < win1_2.index t (2 : Fin 3) * 128 + 128
    rw [e2]; omega

/-- The result after the second kernel: features times the mask array it found. -/
theorem final1 (c : Dev nD) : (dat1 V c).arrAt 2 cfg1.N = partsArr (V c main_arg0) (V c main_v0) :=
  (dat1 V c).arrAt_eq_of_cover 2 (partsArr (V c main_arg0) (V c main_v0)) (fun t _ => flushed1_eq V c t) cover1

end Cert.KernelIdeal.Arrays

end
-- ==== Proof.KernelRun.lean ====
/-
  The kernel program's run with its result buffers named: every weakly fair execution of @main ends with each result
  buffer, and each argument, at the contents the fold through @main's segments gives it; and those contents walked
  back, one segment at a time, to the regions' write-backs and the launch memory.
-/
import proofs.«136998_j13365938225811_2_alg».proof.Proof.KernelIdealFrameP
import Idealize.ShloMosaic.Lib.StableHlo.Run

set_option maxRecDepth 16384

noncomputable section

namespace Cert.KernelIdeal.RunValues

open Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- THE RUN WITH THE RESULTS NAMED: at the compiled mesh, from any memory with zero counters, every weakly fair execution
    of @main on the TensorCores terminates, nothing faulting, and every final state has the two result arrays at the
    last boundary's contents and the argument arrays as launched. -/
theorem run_values : θ_run defs (onTc (τ := τ) (main (F := F))) ⟨m, fun _ => 0, ρ⟩ (fun r => ∀ c : Dev nD,
      r.2.mem ((c.tc : Thread nD τ).loc main_v1) = GenP.W3 m ρ c (Proc.devRef .tc main_v1)
      ∧ r.2.mem ((c.tc : Thread nD τ).loc main_v4) = GenP.W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v1 (by decide)),
       h c _ (mem_uc main_v4 (by decide)),
       (h c _ (mem_uc main_arg0 (by decide))).trans (W3_main_arg0 m ρ c),
       (h c _ (mem_uc main_arg1 (by decide))).trans (W3_main_arg1 m ρ c)⟩)

/-! ## The boundary contents walked back -/

/-- No host operation writes region 1's output array: after the host tail it holds what region 1's write-backs left. -/
theorem W3_main_v1 (c : Dev nD) :
    GenP.W3 m ρ c (Proc.devRef .tc main_v1) = (GenP.dat1 (GenP.V1 m ρ) c).arrAt 2 cfg1.N :=
  calc GenP.W3 m ρ c (Proc.devRef .tc main_v1)
    _ = GenP.W2 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (GenP.dat1 (GenP.V1 m ρ) c).arrAt 2 cfg1.N := GenP.W2_arr m ρ c 2

/-- The host tail's second result: the comparison of region 0's output array, as region 1 left it, against the zero
    word spread over the array. -/
theorem W3_main_v4 (c : Dev nD) :
    GenP.W3 m ρ c (Proc.devRef .tc main_v4)
      = id (cmpf .une (GenP.W2 m ρ c (Proc.devRef .tc main_v0))
          (broadcastInDim S100000x8 ![] bcast_S_S100000x8 (constant (F := F) S_ .f32 0x00000000#32))) := by
  show StableHlo.after hostOps2 (GenP.W2 m ρ c) (Proc.devRef .tc main_v4) = _
  after_results

/-- Region 1 reads region 0's output array through an input window and leaves it as entered. -/
theorem W2_main_v0 (c : Dev nD) :
    GenP.W2 m ρ c (Proc.devRef .tc main_v0) = (GenP.dat0 (GenP.V0 m ρ) c).arrAt 1 cfg0.N :=
  (GenP.W2_arr m ρ c 1).trans (((GenP.dat1 (GenP.V1 m ρ) c).arrAt_in 1 rfl _).trans
    ((GenP.A_eq1 (GenP.V1 m ρ) c 1).trans (GenP.W1_arr m ρ c 1)))

/-- At region 1's entry region 0's output array holds what region 0's write-backs left. -/
theorem V1_main_v0 (c : Dev nD) : GenP.V1 m ρ c main_v0 = (GenP.dat0 (GenP.V0 m ρ) c).arrAt 1 cfg0.N :=
  GenP.W1_arr m ρ c 1

/-- Region 0 does not touch the first argument. -/
theorem V1_main_arg0 (c : Dev nD) : GenP.V1 m ρ c main_arg0 = m ((c : Thread nD τ).loc main_arg0) :=
  (GenP.W1_of_ne m ρ c main_arg0 (by decide)).trans rfl

/-- At launch the second argument is the launch memory's. -/
theorem V0_main_arg1 (c : Dev nD) : GenP.V0 m ρ c main_arg1 = m ((c : Thread nD τ).loc main_arg1) := rfl

end Cert.KernelIdeal.RunValues

end
-- ==== Proof.KernelValue.lean ====
/-
  The idealized kernel program's two results as functions of its two arguments.

  The run leaves the first result at what the second kernel's write-backs leave and the second result at the host's
  comparison "mask ≠ 0" of the mask the first kernel left. With the two kernels' arrays read as whole-array functions,
  the mask is the array of the numbers 1 / 0 of the specification's bits; a product with that number is the select on the
  bit, and "that number ≠ 0" is the bit.
-/
import proofs.«136998_j13365938225811_2_alg».proof.Proof.KernelArrays
import proofs.«136998_j13365938225811_2_alg».proof.Proof.KernelRun
import Idealize.ShloMosaic.Lib.IdealHost

noncomputable section

namespace Cert.KernelIdeal.KValue

open Idealize.ShloMosaic Idealize.ShloMosaic.ValueIdx Idealize.ShloMosaic.TcCoe Idealize.SL.Sem
open Cert.KernelIdeal Cert.KernelIdeal.Gen Cert.KernelIdeal.GenP Cert.KernelIdeal.Arrays Cert.KernelIdeal.RunValues Cert.NodeMask

/-- Features times the mask's numbers is the specification's first result. -/
theorem parts_bridge (x : S100000x128.Idx → EReal) (z : S100000x256.Idx → EReal) :
    partsArr x (maskArr z) = parts x z := by
  funext i
  obtain ⟨cc, n, f, rfl⟩ : ∃ (cc : Fin 8) (n : Fin 100000) (f : Fin 128), i = ix3 cc n f := ⟨i 0, i 1, i 2, eq_ix3 i⟩
  show x (ix2 n f) * bitVal (maskBit z n cc) = Scalar.select (maskBit z n cc) (x (ix2 n f)) (Ideal.ofBits .f32 0x00000000#32)
  exact mul_bitVal _ _

/-- "The mask's number differs from zero" is the specification's second result. -/
theorem mask_bridge (z : S100000x256.Idx → EReal) :
    cmpf .une (maskArr z) (broadcastInDim S100000x8 ![] bcast_S_S100000x8 (constant (F := Ideal) S_ .f32 0x00000000#32))
      = nodeMask z := by
  funext i
  show Ideal.cmp .une (bitVal (maskBit z (i 0) (i 1))) (Ideal.ofBits .f32 0x00000000#32) = maskBit z (i 0) (i 1)
  exact une_bitVal _

variable (m : (ℓ : Loc nD τ sig) → Buf (Elt Ideal) ℓ) (ρ : Dev nD → PrngReg)

/-- The mask the first kernel leaves, from the launch memory. -/
theorem mask_value (c : Dev nD) :
    (dat0 (V0 m ρ) c).arrAt 1 cfg0.N = maskArr (m ((c : Thread nD τ).loc main_arg1)) :=
  (final0 (V0 m ρ) c).trans (congrArg maskArr (V0_main_arg1 m ρ c))

/-- The first result after the run. -/
theorem result_parts (c : Dev nD) :
    W3 m ρ c (Proc.devRef .tc main_v1)
      = parts (m ((c : Thread nD τ).loc main_arg0)) (m ((c : Thread nD τ).loc main_arg1)) := by
  rw [W3_main_v1, final1 (V1 m ρ) c, V1_main_arg0, V1_main_v0, mask_value]
  exact parts_bridge _ _

/-- The second result after the run. -/
theorem result_mask (c : Dev nD) :
    W3 m ρ c (Proc.devRef .tc main_v4) = nodeMask (m ((c : Thread nD τ).loc main_arg1)) := by
  rw [W3_main_v4, W2_main_v0, mask_value]
  exact mask_bridge _

/-- The idealized kernel program's run with both results named. -/
theorem run : θ_run defs (onTc (τ := τ) (main (F := Ideal))) ⟨m, fun _ => 0, ρ⟩ (fun r => ∀ c : Dev nD,
      r.2.mem ((c.tc : Thread nD τ).loc main_v1)
        = parts (m ((c.tc : Thread nD τ).loc main_arg0)) (m ((c.tc : Thread nD τ).loc main_arg1))
      ∧ r.2.mem ((c.tc : Thread nD τ).loc main_v4) = nodeMask (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_parts m ρ c), (h c).2.1.trans (result_mask m ρ c),
    (h c).2.2.1, (h c).2.2.2⟩) (run_values m ρ)

end Cert.KernelIdeal.KValue

end
-- ==== Proof.LibGroupMean.lean ====
/-
  Group means through an averaging matrix. A block of `T = 32 * G` rows is reduced to `G` rows, row `g` being the
  mean of the rows `32 * g, …, 32 * g + 31`. The reduction is written as a matrix product with the matrix whose entry
  at `(g, c)` is `1 / 32` when `c / 32 = g` (floor division) and `0` otherwise. The floor division of the column
  number by 32 is spelled with the truncating signed division and a sign correction; on a non-negative column number
  the correction never applies and the truncating division is the natural-number division. No program appears in this
  module.
-/
import Idealize.ShloMosaic.Lib.ValueIdx
import Idealize.ShloMosaic.PureOps.Ideal.Laws

noncomputable section

namespace Cert.GroupMean

open Idealize.ShloMosaic
open scoped BigOperators

theorem toNat_ofNat_lt (c : ℕ) (hc : c < 2^31) : (BitVec.ofNat 32 c).toNat = c := by
  simp [BitVec.toNat_ofNat]; omega

theorem msb_ofNat_lt (c : ℕ) (hc : c < 2^31) : (BitVec.ofNat 32 c).msb = false := by
  rw [BitVec.msb_eq_decide]; simp [BitVec.toNat_ofNat]; omega

theorem not_corner (x : BitVec 32) : ¬ IntOp.SDivCorner x 32#32 := by
  unfold IntOp.SDivCorner
  have h1 : ¬ (32#32 = (0 : BitVec 32)) := by decide
  have h2 : ¬ (32#32 = (-1 : BitVec 32)) := by decide
  tauto

theorem divsi_ofNat (c : ℕ) (hc : c < 2^31) :
    IntOp.divsi .vector (BitVec.ofNat 32 c) 32#32 = BitVec.ofNat 32 (c / 32) := by
  unfold IntOp.divsi
  rw [if_neg (not_corner _)]
  apply BitVec.eq_of_toNat_eq
  rw [BitVec.sdiv_eq, msb_ofNat_lt c hc]
  have h32 : (32#32 : BitVec 32).msb = false := by decide
  rw [h32]
  simp only [BitVec.udiv_eq, BitVec.toNat_udiv, toNat_ofNat_lt c hc]
  rw [toNat_ofNat_lt (c/32) (by omega)]
  rfl

theorem remsi_ofNat (c : ℕ) (hc : c < 2^31) :
    IntOp.remsi .vector (BitVec.ofNat 32 c) 32#32 = BitVec.ofNat 32 (c % 32) := by
  unfold IntOp.remsi
  rw [if_neg (not_corner _)]
  apply BitVec.eq_of_toNat_eq
  rw [BitVec.srem_eq, msb_ofNat_lt c hc]
  have h32 : (32#32 : BitVec 32).msb = false := by decide
  rw [h32]
  simp only [BitVec.umod_eq, BitVec.toNat_umod, toNat_ofNat_lt c hc]
  rw [toNat_ofNat_lt (c%32) (by omega)]
  rfl

theorem ofNat_eq_iff (a b : ℕ) (ha : a < 2^31) (hb : b < 2^31) :
    BitVec.ofNat 32 a = BitVec.ofNat 32 b ↔ a = b := by
  constructor
  · intro h
    have := congrArg BitVec.toNat h
    rwa [toNat_ofNat_lt a ha, toNat_ofNat_lt b hb] at this
  · intro h; rw [h]

/-- The sign-correction mask of the floor division is never set on a nonnegative dividend. -/
theorem mask_ofNat (c : ℕ) (hc : c < 2^31) :
    IntOp.andi (IntOp.cmpi .ne (IntOp.subi ((IntOp.cmpi .sgt (BitVec.ofNat 32 c) 0#32).setWidth 32)
        ((IntOp.cmpi .slt (BitVec.ofNat 32 c) 0#32).setWidth 32))
        (Scalar.subi (Scalar.extui (Scalar.cmpi .sgt 32#32 0#32)) (Scalar.extui (Scalar.cmpi .slt 32#32 0#32))))
      (IntOp.cmpi .ne (IntOp.remsi .vector (BitVec.ofNat 32 c) 32#32) 0#32) = 0#1 := by
  have hk : Scalar.subi (Scalar.extui (Scalar.cmpi .sgt 32#32 0#32)) (Scalar.extui (Scalar.cmpi .slt 32#32 0#32))
      = 1#32 := by decide
  rw [hk, remsi_ofNat c hc]
  have hti : (BitVec.ofNat 32 c).toInt = (c : ℤ) := by
    rw [BitVec.toInt_eq_msb_cond, msb_ofNat_lt c hc, toNat_ofNat_lt c hc]; simp
  have hz : (0#32 : BitVec 32).toInt = 0 := by decide
  have hslt : IntOp.cmpi .slt (BitVec.ofNat 32 c) 0#32 = 0#1 := by
    have hd : decide ((c : ℤ) < 0) = false := by
      rw [decide_eq_false_iff_not]; omega
    simp only [IntOp.cmpi, BitVec.slt, hti, hz, hd]
    rfl
  rw [hslt]
  by_cases h0 : c = 0
  · subst h0
    decide
  · have hsgt : IntOp.cmpi .sgt (BitVec.ofNat 32 c) 0#32 = 1#1 := by
      have hd : decide ((0 : ℤ) < (c : ℤ)) = true := by
        rw [decide_eq_true_iff]; omega
      simp only [IntOp.cmpi, BitVec.slt, hti, hz, hd]
      rfl
    rw [hsgt]
    have : IntOp.cmpi .ne (IntOp.subi ((1#1).setWidth 32) ((0#1).setWidth 32)) 1#32 = 0#1 := by decide
    rw [this]
    simp [IntOp.andi]

theorem indicator_scalar {α : Type} (c g : ℕ) (hc : c < 2^31) (hg : g < 2^31) (a b : α) :
    Scalar.select (IntOp.cmpi .eq (Scalar.select
      (IntOp.andi (IntOp.cmpi .ne (IntOp.subi ((IntOp.cmpi .sgt (BitVec.ofNat 32 c) 0#32).setWidth 32)
        ((IntOp.cmpi .slt (BitVec.ofNat 32 c) 0#32).setWidth 32))
        (Scalar.subi (Scalar.extui (Scalar.cmpi .sgt 32#32 0#32)) (Scalar.extui (Scalar.cmpi .slt 32#32 0#32))))
      (IntOp.cmpi .ne (IntOp.remsi .vector (BitVec.ofNat 32 c) 32#32) 0#32))
      (IntOp.subi (IntOp.divsi .vector (BitVec.ofNat 32 c) 32#32) 1#32)
      (IntOp.divsi .vector (BitVec.ofNat 32 c) 32#32)) (BitVec.ofNat 32 g)) a b
    = if c / 32 = g then a else b := by
  rw [mask_ofNat c hc, divsi_ofNat c hc]
  have hsel : ∀ (p q : BitVec 32), Scalar.select 0#1 p q = q := by
    intro p q; simp [Scalar.select]
  rw [hsel]
  by_cases h : c / 32 = g
  · rw [if_pos h, h]
    simp [IntOp.cmpi, Scalar.select]
  · rw [if_neg h]
    have hne : ¬ BitVec.ofNat 32 (c/32) = BitVec.ofNat 32 g := by
      rw [ofNat_eq_iff (c/32) g (by omega) hg]; exact h
    have hb : (BitVec.ofNat 32 (c / 32) == BitVec.ofNat 32 g) = false := beq_eq_false_iff_ne.mpr hne
    simp only [IntOp.cmpi, Scalar.select, hb]
    rw [if_neg (by decide)]

/-! ### The vector chain read at one index -/

/-- The rank-2 iota along axis 1 is the column coordinate. -/
theorem iota_axis1 (G T : ℕ) (h : (⟨2, ![G, T]⟩ : Shape).Iotas .tc 32 [1]) (i : (⟨2, ![G, T]⟩ : Shape).Idx) :
    iota .tc ⟨2, ![G, T]⟩ 32 [1] h i = BitVec.ofNat 32 (i 1).val := by
  simp [iota]

/-- The rank-2 iota along axis 0 is the row coordinate. -/
theorem iota_axis0 (G T : ℕ) (h : (⟨2, ![G, T]⟩ : Shape).Iotas .tc 32 [0]) (i : (⟨2, ![G, T]⟩ : Shape).Idx) :
    iota .tc ⟨2, ![G, T]⟩ 32 [0] h i = BitVec.ofNat 32 (i 0).val := by
  simp [iota]

/-- The truncating quotient of the column vector by 32, read at an index whose column number is `c`. -/
theorem quot_apply {s : Shape} (col : IVec s 32) (i : s.Idx) (c : ℕ) (hcol : col i = BitVec.ofNat 32 c) :
    divsi col (broadcast s 32#32) i = IntOp.divsi .vector (BitVec.ofNat 32 c) 32#32 := by
  show IntOp.divsi .vector (col i) 32#32 = _
  rw [hcol]

/-- The sign-correction mask of the column vector, read at an index whose column number is `c`. -/
theorem mask_apply {s : Shape} (col : IVec s 32) (h1 : 1 < 32) (i : s.Idx) (c : ℕ)
    (hcol : col i = BitVec.ofNat 32 c) :
    andi (cmpi .ne (subi (extui 32 (cmpi .sgt col (broadcast s 0#32)) h1)
          (extui 32 (cmpi .slt col (broadcast s 0#32)) h1))
        (broadcast s (Scalar.subi (Scalar.extui (Scalar.cmpi .sgt 32#32 0#32))
          (Scalar.extui (Scalar.cmpi .slt 32#32 0#32)))))
      (cmpi .ne (remsi col (broadcast s 32#32)) (broadcast s 0#32)) i
    = IntOp.andi (IntOp.cmpi .ne (IntOp.subi ((IntOp.cmpi .sgt (BitVec.ofNat 32 c) 0#32).setWidth 32)
        ((IntOp.cmpi .slt (BitVec.ofNat 32 c) 0#32).setWidth 32))
        (Scalar.subi (Scalar.extui (Scalar.cmpi .sgt 32#32 0#32)) (Scalar.extui (Scalar.cmpi .slt 32#32 0#32))))
      (IntOp.cmpi .ne (IntOp.remsi .vector (BitVec.ofNat 32 c) 32#32) 0#32) := by
  rw [← hcol]
  rfl

/-- Split form: a quotient vector `q` and a mask vector `m` that read, at the index, as the truncating quotient and
    the sign-correction mask of the column number `c`; the corrected quotient compared with the row number `g`
    selects `a` exactly when `c / 32 = g`. -/
theorem indicator_split {α : Type} {s : Shape} (q : IVec s 32) (m : IVec s 1) (row : IVec s 32)
    (a b : s.Idx → α) (i : s.Idx) (c g : ℕ) (hc : c < 2^31) (hg : g < 2^31)
    (hq : q i = IntOp.divsi .vector (BitVec.ofNat 32 c) 32#32)
    (hm : m i = IntOp.andi (IntOp.cmpi .ne (IntOp.subi ((IntOp.cmpi .sgt (BitVec.ofNat 32 c) 0#32).setWidth 32)
        ((IntOp.cmpi .slt (BitVec.ofNat 32 c) 0#32).setWidth 32))
        (Scalar.subi (Scalar.extui (Scalar.cmpi .sgt 32#32 0#32)) (Scalar.extui (Scalar.cmpi .slt 32#32 0#32))))
      (IntOp.cmpi .ne (IntOp.remsi .vector (BitVec.ofNat 32 c) 32#32) 0#32))
    (hrow : row i = BitVec.ofNat 32 g) :
    select (cmpi .eq (select m (subi q (broadcast s 1#32)) q) row) a b i = if c / 32 = g then a i else b i := by
  have key := indicator_scalar c g hc hg (a i) (b i)
  rw [← hq, ← hm, ← hrow] at key
  exact key

/-- Split form over the two chains themselves: the quotient chain and the mask chain of one column vector. -/
theorem indicator_split_chain {α : Type} {s : Shape} (col row : IVec s 32) (h1 : 1 < 32)
    (a b : s.Idx → α) (i : s.Idx) (c g : ℕ) (hc : c < 2^31) (hg : g < 2^31)
    (hcol : col i = BitVec.ofNat 32 c) (hrow : row i = BitVec.ofNat 32 g) :
    select (cmpi .eq (select
      (andi (cmpi .ne (subi (extui 32 (cmpi .sgt col (broadcast s 0#32)) h1)
          (extui 32 (cmpi .slt col (broadcast s 0#32)) h1))
        (broadcast s (Scalar.subi (Scalar.extui (Scalar.cmpi .sgt 32#32 0#32))
          (Scalar.extui (Scalar.cmpi .slt 32#32 0#32)))))
        (cmpi .ne (remsi col (broadcast s 32#32)) (broadcast s 0#32)))
      (subi (divsi col (broadcast s 32#32)) (broadcast s 1#32))
      (divsi col (broadcast s 32#32))) row) a b i = if c / 32 = g then a i else b i :=
  indicator_split _ _ row a b i c g hc hg (quot_apply col i c hcol) (mask_apply col h1 i c hcol) hrow

/-! ### The matrix product row: a sum over one group of 32 -/

/-- A sum over `T = 32 * G` columns against the indicator of group `g` (times a constant) is the sum over the 32
    columns of that group: the indicator vanishes off the group, and the group is the image of
    `s ↦ 32 * g + s`. -/
theorem group_sum (G T : ℕ) (hT : T = G * 32) (g : Fin G) (a : EReal) (x : Fin T → EReal) :
    ∑ c : Fin T, (if c.val / 32 = g.val then a else 0) * x c
      = ∑ s : Fin 32, a * x ⟨g.val * 32 + s.val, by have := g.isLt; have := s.isLt; omega⟩ := by
  subst hT
  classical
  let e : Fin 32 → Fin (G * 32) := fun s => ⟨g.val * 32 + s.val, by have := g.isLt; have := s.isLt; omega⟩
  have hinj : Function.Injective e := by
    intro s t h
    have := congrArg Fin.val h
    simp only [e] at this
    exact Fin.ext (by omega)
  have himg : ∀ c : Fin (G * 32), c.val / 32 = g.val → c ∈ (Finset.univ.image e) := by
    intro c hc
    rw [Finset.mem_image]
    refine ⟨⟨c.val % 32, Nat.mod_lt _ (by norm_num)⟩, Finset.mem_univ _, ?_⟩
    apply Fin.ext
    simp only [e]
    omega
  rw [← Finset.sum_subset (Finset.subset_univ (Finset.univ.image e))]
  · rw [Finset.sum_image (fun s _ t _ h => hinj h)]
    apply Finset.sum_congr rfl
    intro s _
    have : (e s).val / 32 = g.val := by simp only [e]; have := s.isLt; omega
    rw [if_pos this]
  · intro c _ hc
    have : ¬ c.val / 32 = g.val := fun h => hc (himg c h)
    rw [if_neg this, zero_mul]

/-! ### The float words of the averaging -/

/-- `0.03125` denotes the real `1 / 32`. -/
theorem ofBits_inv32 : Ideal.ofBits .f32 0x3D000000#32 = (((1 : ℝ) / 32 : ℝ) : EReal) := by
  simp [Ideal.ofBits, Ideal.ieee, -EReal.coe_mul]; norm_num

/-- `32.0` denotes the real `32`. -/
theorem ofBits_32 : Ideal.ofBits .f32 0x42000000#32 = ((32 : ℝ) : EReal) := by
  simp [Ideal.ofBits, Ideal.ieee, -EReal.coe_mul]; norm_num

/-- `2.0` denotes the real `2`. -/
theorem ofBits_2 : Ideal.ofBits .f32 0x40000000#32 = ((2 : ℝ) : EReal) := by
  simp [Ideal.ofBits, Ideal.ieee, -EReal.coe_mul]; norm_num

/-- `+0.0` denotes `0`. -/
theorem ofBits_0 : Ideal.ofBits .f32 0x00000000#32 = 0 := by
  simp [Ideal.ofBits, Ideal.ieee]

/-- A non-negative finite extended real distributes over a finite sum of extended reals, infinite summands
    included. Induction on the index set. -/
theorem mul_sum_nonneg_fin {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- The sum of the 32 entries each scaled by `1 / 32` is the sum divided by `32`: the factor `1 / 32` is non-negative
    and finite, so it distributes over the sum whatever the entries are, and division by a nonzero real is the
    product with its reciprocal. -/
theorem mean32 (x : Fin 32 → EReal) :
    ∑ s, (((1 : ℝ) / 32 : ℝ) : EReal) * x s = Ideal.div (∑ s, x s) ((32 : ℝ) : EReal) := by
  rw [Ideal.div_coe (by norm_num : (32 : ℝ) ≠ 0), mul_comm]
  have h0 : (0 : EReal) ≤ (((1 : ℝ) / 32 : ℝ) : EReal) := by
    exact_mod_cast (by norm_num : (0 : ℝ) ≤ 1 / 32)
  exact (mul_sum_nonneg_fin Finset.univ x _ h0 (EReal.coe_ne_top _)).symm

/-- Division by `2` is the product with `1 / 2`, at the infinities too. -/
theorem div2_eq_mul (x : EReal) : Ideal.div x ((2 : ℝ) : EReal) = x * (((1 : ℝ) / 2 : ℝ) : EReal) :=
  Ideal.div_coe (by norm_num) x

end Cert.GroupMean
-- ==== Proof.RefValue.lean ====
/-
  The reference program's two results, read one operation at a time against the program-free specification: each
  intermediate array is stated at explicit coordinates as the specification's quantity of the same name, for every
  argument array over the extended reals.
-/
import proofs.«136998_j13365938225811_2_alg».proof.Proof.Gen.ReferenceIdeal.Read
import proofs.«136998_j13365938225811_2_alg».proof.Proof.Spec
import proofs.«136998_j13365938225811_2_alg».proof.Proof.LibGroupMean
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.NodeMask
open scoped BigOperators

/-- The argument array with 256 columns, and the one with 128. -/
abbrev ZArr := (⟨S100000x256, .f32⟩ : BufTy).Contents (Elt Ideal)
abbrev XArr := (⟨S100000x128, .f32⟩ : BufTy).Contents (Elt Ideal)

/-! ## The group means -/

/-- Entry (n, c, k) of the array regrouped as [100000, 8, 32] is column 32·c + k of row n. -/
theorem v0_at (z : ZArr) (n : Fin 100000) (c : Fin 8) (k : Fin 32) :
    val_main_v0 (F := Ideal) z (ix3 n c k) = z (ix2 n (groupCol c k)) := by
  rw [val_main_v0_apply]
  refine congrArg z (funext fun a => Fin.ext ?_)
  match a with
  | ⟨0, _⟩ => show ((n.val * 8 + c.val) * 32 + k.val) / 256 = n.val; omega
  | ⟨1, _⟩ => show ((n.val * 8 + c.val) * 32 + k.val) % 256 = 32 * c.val + k.val; omega

/-- The sum over a group, from the zero word. -/
theorem v1_at (z : ZArr) (n : Fin 100000) (c : Fin 8) :
    val_main_v1 (F := Ideal) z (ix2 n c)
      = Ideal.ofBits .f32 0x00000000#32 + ∑ k : Fin 32, z (ix2 n (groupCol c k)) := by
  rw [val_main_v1_apply]
  refine congrArg₂ (· + ·) rfl (Finset.sum_congr rfl fun k _ => ?_)
  refine Eq.trans (congrArg (val_main_v0 (F := Ideal) z) ?_) (v0_at z n c k)
  funext a
  match a with
  | ⟨0, _⟩ => rfl
  | ⟨1, _⟩ => rfl
  | ⟨2, _⟩ => rfl

/-- Dividing the group's sum by the word of 32 is multiplying it by the word of 1/32: the group mean. -/
theorem v3_at (z : ZArr) (n : Fin 100000) (c : Fin 8) :
    val_main_v3 (F := Ideal) z (ix2 n c) = groupMean z n c := by
  rw [val_main_v3_apply, v1_at, val_main_v2_apply, val_main_cst_0_apply]
  show Ideal.div (Ideal.ofBits .f32 0x00000000#32 + ∑ k : Fin 32, z (ix2 n (groupCol c k))) (Ideal.ofBits .f32 0x42000000#32)
    = (∑ k : Fin 32, z (ix2 n (groupCol c k))) * Ideal.ofBits .f32 0x3D000000#32
  rw [Ideal.ofBits_zero_f32, zero_add, Cert.GroupMean.ofBits_32, Cert.GroupMean.ofBits_inv32,
    Ideal.div_coe (by norm_num : (32 : ℝ) ≠ 0)]

/-- Row r of chunk q of the regrouped means. -/
theorem v4_at (z : ZArr) (q : Fin 10) (r : Fin 10000) (c : Fin 8) :
    val_main_v4 (F := Ideal) z (ix3 q r c) = phi z q r c := by
  rw [val_main_v4_apply]
  refine Eq.trans (congrArg (val_main_v3 (F := Ideal) z) ?_) (v3_at z (chunkRow q r) c)
  funext a
  refine Fin.ext ?_
  match a with
  | ⟨0, _⟩ => show ((q.val * 10000 + r.val) * 8 + c.val) / 8 = q.val * 10000 + r.val; omega
  | ⟨1, _⟩ => show ((q.val * 10000 + r.val) * 8 + c.val) % 8 = c.val; omega

/-! ## The column maxima of a chunk -/

/-- A fold of max is at least the value it starts from. -/
theorem max_start_fold {ι : Type} (s : Finset ι) (b : EReal) (f : ι → EReal) :
    max b (s.fold max b f) = s.fold max b f :=
  max_eq_right ((Finset.le_fold_max b).mpr (Or.inl le_rfl))

/-- Index (q, c) of [10, 8] with row k put back on the middle axis is (q, k, c). -/
theorem lift_rows (h : S10x10000x8.Reduces [1] S10x8) (q : Fin 10) (c : Fin 8) (k : Fin (S10x10000x8.size 1)) :
    h.lift (ix2 q c) k = ix3 q (⟨k.val, k.isLt⟩ : Fin 10000) c := by
  funext a; apply Fin.ext
  fin_cases a <;> rfl

/-- A maximum over the middle axis of a [10, 10000, 8] array, from the word of −∞, is at (q, c) the fold of max over the
    rows r of the entries (q, r, c). -/
theorem reduce_rows (x : S10x10000x8.Idx → EReal) (h' : S10x10000x8.ReducesTo [1] S10x8) (hu : 0 < S_.numel)
    (q : Fin 10) (c : Fin 8) :
    Host.reduce (FloatOps.maximumf (F := Ideal) (φ := .f32)) x (constant (F := Ideal) S_ .f32 0xFF800000#32) h' hu (ix2 q c)
      = (Finset.univ : Finset (Fin 10000)).fold max negInf (fun r => x (ix3 q r c)) := by
  have h : S10x10000x8.Reduces [1] S10x8 := by decide
  refine (Host.reduce_eq_fold_single (FloatOps.maximumf (F := Ideal) (φ := .f32)) x _ h' h hu (ix2 q c)).trans ?_
  have hf : (x ∘ h.lift (ix2 q c)) = fun r : Fin 10000 => x (ix3 q r c) :=
    funext fun k => congrArg x (lift_rows h q c k)
  exact congrArg (fun f => Finset.fold max negInf f (Finset.univ : Finset (Fin 10000))) hf

/-- The maximum over the rows of a chunk, from the word of −∞. -/
theorem v5_at (z : ZArr) (q : Fin 10) (c : Fin 8) :
    val_main_v5 (F := Ideal) z (ix2 q c) = colMax (phi z q) c := by
  unfold val_main_v5 val_main_cst_1
  refine (reduce_rows _ _ _ q c).trans ?_
  exact congrArg (fun f => Finset.fold max negInf f (Finset.univ : Finset (Fin 10000))) (funext fun r => v4_at z q r c)

/-- Taking the maximum with the word of −∞ once more changes nothing. -/
theorem v7_at (z : ZArr) (q : Fin 10) (c : Fin 8) :
    val_main_v7 (F := Ideal) z (ix2 q c) = colMax (phi z q) c := by
  rw [val_main_v7_apply, v5_at, val_main_v6_apply, val_main_cst_2_apply]
  exact max_start_fold _ _ _

/-- The column maximum spread back over the chunk's rows. -/
theorem v9_at (z : ZArr) (q : Fin 10) (r : Fin 10000) (c : Fin 8) :
    val_main_v9 (F := Ideal) z (ix3 q r c) = colMax (phi z q) c := by
  rw [val_main_v9_apply, val_main_v8_apply]
  refine Eq.trans (congrArg (val_main_v7 (F := Ideal) z) ?_) (v7_at z q c)
  funext a
  match a with
  | ⟨0, _⟩ => rfl
  | ⟨1, _⟩ => rfl

/-- The exponential of the mean less its column's maximum. -/
theorem v11_at (z : ZArr) (q : Fin 10) (r : Fin 10000) (c : Fin 8) :
    val_main_v11 (F := Ideal) z (ix3 q r c) = expo (phi z q) r c := by
  rw [val_main_v11_apply, val_main_v10_apply, v4_at, v9_at]
  rfl

/-! ## The softmax down each column, and the weights -/

/-- The sum of the exponentials over the rows of a chunk. -/
theorem v12_at (z : ZArr) (q : Fin 10) (c : Fin 8) :
    val_main_v12 (F := Ideal) z (ix2 q c) = denom (phi z q) c := by
  rw [val_main_v12_apply, val_main_cst_3_apply]
  show Ideal.ofBits .f32 0x00000000#32 + _ = _
  rw [Ideal.ofBits_zero_f32, zero_add]
  refine Finset.sum_congr rfl fun r _ => ?_
  refine Eq.trans (congrArg (val_main_v11 (F := Ideal) z) ?_) (v11_at z q r c)
  funext a
  match a with
  | ⟨0, _⟩ => rfl
  | ⟨1, _⟩ => rfl
  | ⟨2, _⟩ => rfl

/-- That sum spread back over the chunk's rows. -/
theorem v14_at (z : ZArr) (q : Fin 10) (r : Fin 10000) (c : Fin 8) :
    val_main_v14 (F := Ideal) z (ix3 q r c) = denom (phi z q) c := by
  rw [val_main_v14_apply, val_main_v13_apply]
  refine Eq.trans (congrArg (val_main_v12 (F := Ideal) z) ?_) (v12_at z q c)
  funext a
  match a with
  | ⟨0, _⟩ => rfl
  | ⟨1, _⟩ => rfl

/-- The softmax entry. -/
theorem v15_at (z : ZArr) (q : Fin 10) (r : Fin 10000) (c : Fin 8) :
    val_main_v15 (F := Ideal) z (ix3 q r c) = soft (phi z q) r c := by
  rw [val_main_v15_apply, v11_at, v14_at]
  rfl

/-- The sum of a row's softmax entries. -/
theorem v16_at (z : ZArr) (q : Fin 10) (r : Fin 10000) :
    val_main_v16 (F := Ideal) z (ix2 q r) = rowSum (phi z q) r := by
  rw [val_main_v16_apply, val_main_cst_4_apply]
  show Ideal.ofBits .f32 0x00000000#32 + _ = _
  rw [Ideal.ofBits_zero_f32, zero_add]
  refine Finset.sum_congr rfl fun c _ => ?_
  refine Eq.trans (congrArg (val_main_v15 (F := Ideal) z) ?_) (v15_at z q r c)
  funext a
  match a with
  | ⟨0, _⟩ => rfl
  | ⟨1, _⟩ => rfl
  | ⟨2, _⟩ => rfl

/-- The sum of the row sums over the chunk. -/
theorem v17_at (z : ZArr) (q : Fin 10) :
    val_main_v17 (F := Ideal) z (ix1 q) = total (phi z q) := by
  rw [val_main_v17_apply, val_main_cst_5_apply]
  show Ideal.ofBits .f32 0x00000000#32 + _ = _
  rw [Ideal.ofBits_zero_f32, zero_add]
  refine Finset.sum_congr rfl fun r _ => ?_
  refine Eq.trans (congrArg (val_main_v16 (F := Ideal) z) ?_) (v16_at z q r)
  funext a
  match a with
  | ⟨0, _⟩ => rfl
  | ⟨1, _⟩ => rfl

/-- The chunk's total spread over its rows. -/
theorem v19_at (z : ZArr) (q : Fin 10) (r : Fin 10000) :
    val_main_v19 (F := Ideal) z (ix2 q r) = total (phi z q) := by
  rw [val_main_v19_apply, val_main_v18_apply]
  refine Eq.trans (congrArg (val_main_v17 (F := Ideal) z) ?_) (v17_at z q)
  funext a
  match a with
  | ⟨0, _⟩ => rfl

/-- The total less the row's own sum, spread over the row's columns. -/
theorem v22_at (z : ZArr) (q : Fin 10) (r : Fin 10000) (c : Fin 8) :
    val_main_v22 (F := Ideal) z (ix3 q r c) = total (phi z q) - rowSum (phi z q) r := by
  rw [val_main_v22_apply, val_main_v21_apply]
  refine Eq.trans (congrArg (val_main_v20 (F := Ideal) z) (?_ : _ = ix2 q r)) ?_
  · funext a
    match a with
    | ⟨0, _⟩ => rfl
    | ⟨1, _⟩ => rfl
  · rw [val_main_v20_apply, v19_at, v16_at]
    rfl

/-- The weight. -/
theorem v23_at (z : ZArr) (q : Fin 10) (r : Fin 10000) (c : Fin 8) :
    val_main_v23 (F := Ideal) z (ix3 q r c) = weight (phi z q) r c := by
  rw [val_main_v23_apply, v15_at, v22_at]
  rfl

/-- The weights regrouped by node: node n is row (n mod 10000) of chunk (n div 10000). -/
theorem v24_at (z : ZArr) (n : Fin 100000) (c : Fin 8) :
    val_main_v24 (F := Ideal) z (ix2 n c) = weight (phi z (chunkOf n)) (rowIn n) c := by
  rw [val_main_v24_apply]
  refine Eq.trans (congrArg (val_main_v23 (F := Ideal) z) ?_) (v23_at z (chunkOf n) (rowIn n) c)
  funext a
  refine Fin.ext ?_
  match a with
  | ⟨0, _⟩ => show (n.val * 8 + c.val) / 80000 = n.val / 10000; omega
  | ⟨1, _⟩ => show (n.val * 8 + c.val) / 8 % 10000 = n.val % 10000; omega
  | ⟨2, _⟩ => show (n.val * 8 + c.val) % 8 = c.val; omega

/-! ## The heaviest communities of a node -/

/-- Index n of [100000] with column k put back is (n, k). -/
theorem lift_cols (h : S100000x8.Reduces [1] S100000) (n : Fin 100000) (k : Fin (S100000x8.size 1)) :
    h.lift (ix1 n) k = ix2 n (⟨k.val, k.isLt⟩ : Fin 8) := by
  funext a; apply Fin.ext
  fin_cases a <;> rfl

/-- A maximum over the columns of a [100000, 8] array, from the word of −∞, is at n the fold of max over the columns c
    of the entries (n, c). -/
theorem reduce_cols (x : S100000x8.Idx → EReal) (h' : S100000x8.ReducesTo [1] S100000) (hu : 0 < S_.numel)
    (n : Fin 100000) :
    Host.reduce (FloatOps.maximumf (F := Ideal) (φ := .f32)) x (constant (F := Ideal) S_ .f32 0xFF800000#32) h' hu (ix1 n)
      = (Finset.univ : Finset (Fin 8)).fold max negInf (fun c => x (ix2 n c)) := by
  have h : S100000x8.Reduces [1] S100000 := by decide
  refine (Host.reduce_eq_fold_single (FloatOps.maximumf (F := Ideal) (φ := .f32)) x _ h' h hu (ix1 n)).trans ?_
  have hf : (x ∘ h.lift (ix1 n)) = fun c : Fin 8 => x (ix2 n c) :=
    funext fun k => congrArg x (lift_cols h n k)
  exact congrArg (fun f => Finset.fold max negInf f (Finset.univ : Finset (Fin 8))) hf

/-- The largest weight of a node. -/
theorem v25_at (z : ZArr) (n : Fin 100000) :
    val_main_v25 (F := Ideal) z (ix1 n) = rowMax (phi z (chunkOf n)) (rowIn n) := by
  unfold val_main_v25 val_main_cst_6
  refine (reduce_cols _ _ _ n).trans ?_
  exact congrArg (fun f => Finset.fold max negInf f (Finset.univ : Finset (Fin 8))) (funext fun c => v24_at z n c)

/-- The largest weight spread over the node's columns. -/
theorem v27_at (z : ZArr) (n : Fin 100000) (c : Fin 8) :
    val_main_v27 (F := Ideal) z (ix2 n c) = rowMax (phi z (chunkOf n)) (rowIn n) := by
  rw [val_main_v27_apply, val_main_v26_apply]
  refine Eq.trans (congrArg (val_main_v25 (F := Ideal) z) ?_) (v25_at z n)
  funext a
  match a with
  | ⟨0, _⟩ => rfl

/-- The bit: the weight equals the node's largest. -/
theorem v28_at (z : ZArr) (n : Fin 100000) (c : Fin 8) :
    val_main_v28 (F := Ideal) z (ix2 n c) = maskBit z n c := by
  rw [val_main_v28_apply, v24_at, v27_at]
  rfl

/-- THE SECOND RESULT is the specification's mask. -/
theorem mask_eq (z : (⟨Cert.ReferenceIdeal.S100000x256, .f32⟩ : BufTy).Contents (Elt Ideal)) :
    Cert.ReferenceIdeal.Read.val_main_v28 (F := Ideal) z = Cert.NodeMask.nodeMask z := by
  funext i
  obtain ⟨n, c, rfl⟩ : ∃ (n : Fin 100000) (c : Fin 8), i = ix2 n c := ⟨i 0, i 1, eq_ix2 i⟩
  exact v28_at z n c

/-! ## The parts -/

/-- The mask transposed and spread over the 128 features. -/
theorem where_cond_at (z : ZArr) (c : Fin 8) (n : Fin 100000) (f : Fin 128) :
    val_main_call0_v1 (F := Ideal) z (ix3 c n f) = maskBit z n c := by
  rw [val_main_call0_v1_apply, val_main_v30_apply, val_main_v29_apply]
  refine Eq.trans (congrArg (val_main_v28 (F := Ideal) z) ?_) (v28_at z n c)
  funext a
  match a with
  | ⟨0, _⟩ => rfl
  | ⟨1, _⟩ => rfl

/-- The features spread over the 8 parts. -/
theorem where_then_at (x : XArr) (c : Fin 8) (n : Fin 100000) (f : Fin 128) :
    val_main_call0_v2 (F := Ideal) x (ix3 c n f) = x (ix2 n f) := by
  rw [val_main_call0_v2_apply, val_main_v31_apply]
  refine congrArg x ?_
  funext a
  match a with
  | ⟨0, _⟩ => rfl
  | ⟨1, _⟩ => rfl

/-- The zero word everywhere. -/
theorem where_else_at (i : S8x100000x128.Idx) :
    val_main_call0_v3 (F := Ideal) i = Ideal.ofBits .f32 0x00000000#32 := by
  rw [val_main_call0_v3_apply, val_main_call0_v0_apply, val_main_cst_7_apply]
  rfl

/-- THE FIRST RESULT is the specification's parts. -/
theorem parts_eq (x : (⟨Cert.ReferenceIdeal.S100000x128, .f32⟩ : BufTy).Contents (Elt Ideal))
    (z : (⟨Cert.ReferenceIdeal.S100000x256, .f32⟩ : BufTy).Contents (Elt Ideal)) :
    Cert.ReferenceIdeal.Read.val_main_v32 (F := Ideal) x z = Cert.NodeMask.parts x z := by
  funext i
  obtain ⟨c, n, f, rfl⟩ : ∃ (c : Fin 8) (n : Fin 100000) (f : Fin 128), i = ix3 c n f := ⟨i 0, i 1, i 2, eq_ix3 i⟩
  rw [val_main_v32_apply, where_cond_at, where_then_at, where_else_at]
  rfl

end Cert.ReferenceIdeal.RefValue

end
-- ==== Proof.lean ====
/-
  The certificate of a two-kernel node-mask program against its array-level reference, over the extended reals.

  Both programs cut the 100000 nodes into 10 chunks of 10000 rows. Within a chunk they take the mean of each of the 8
  groups of 32 features of a node, a softmax of those means down the chunk's rows, each node's total softmax mass, and
  the weight  soft · (chunk total − node mass); a node's communities are the ones whose weight equals the largest weight
  of its row. The first result copies a node's features into the part of each of its communities (zero elsewhere), the
  second is the community mask itself.

  The kernel program computes the mask chunk by chunk in a first kernel as the numbers 1 / 0, multiplies the features by
  the mask's column in a second kernel, and reads the mask back as "number ≠ 0" on the host. The reference divides where
  the kernel multiplies by 1/32 (the same on every extended real), takes its maxima and sums over reshaped arrays (the
  same folds and sums over the same entries), and selects where the kernel multiplies by 1 or 0 (the same, since a
  product with 0 is 0 on the extended reals). So both end at the specification's two functions of the arguments
  (Proof/Spec.lean): the kernel side by Proof/KernelValue.lean, the reference side by Proof/RefValue.lean.

  The precondition (finite inputs) is not used: no step needs finiteness. No operation of the kernel is replaced in its
  idealized form, so the idealized kernel is the kernel's own text read over the extended reals and there is nothing
  for it to preserve.
-/
import proofs.«136998_j13365938225811_2_alg».proof.Defs
import proofs.«136998_j13365938225811_2_alg».proof.Proof.Gen.Kernel
import proofs.«136998_j13365938225811_2_alg».proof.Proof.Gen.KernelIdeal
import proofs.«136998_j13365938225811_2_alg».proof.Proof.Gen.ReferenceIdeal
import proofs.«136998_j13365938225811_2_alg».proof.Proof.Gen.Pre_finite_inputs
import proofs.«136998_j13365938225811_2_alg».proof.Proof.KernelFrameP
import proofs.«136998_j13365938225811_2_alg».proof.Proof.KernelIdealFrameP
import proofs.«136998_j13365938225811_2_alg».proof.Proof.Gen.ReferenceIdeal.Run
import proofs.«136998_j13365938225811_2_alg».proof.Proof.Gen.ReferenceIdeal.Read
import proofs.«136998_j13365938225811_2_alg».proof.Proof.KernelValue
import proofs.«136998_j13365938225811_2_alg».proof.Proof.RefValue
import Idealize.ShloMosaic.Adequacy
import Idealize.ShloMosaic.Init

noncomputable section

namespace Cert.Proof

open Idealize.ShloMosaic Idealize.SL.Sem

/-- The word-level kernel program runs, and its arguments end unchanged. -/
theorem frame_kernel : Cert.frame_Kernel := fun m ρ _ => Cert.Kernel.GenP.frame m ρ

/-- So does the idealized kernel program. -/
theorem frame_kernelIdeal : Cert.frame_KernelIdeal := fun m ρ _ => Cert.KernelIdeal.GenP.frame m ρ

/-- The reference runs: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was replaced: nothing to preserve. -/
theorem preserves : Cert.preserves_Kernel_KernelIdeal := trivial

/-- From memories agreeing on the arguments both programs end at the specification's parts and mask of the
    arguments. -/
theorem algebraic : Cert.algebraic_KernelIdeal_ReferenceIdeal := by
  intro m ρ m' ρ' _ hagree
  refine ⟨fun c => Cert.NodeMask.parts (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.NodeMask.nodeMask (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v32_eq, Cert.ReferenceIdeal.RefValue.parts_eq, (hagree c).1, (hagree c).2]
  · rw [(h c).2.1, Cert.ReferenceIdeal.Read.val_main_v28_eq, Cert.ReferenceIdeal.RefValue.mask_eq, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
